-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S64x512 : Shape := ⟨2, ![64, 512]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16x64 .f32) (main_arg6 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S64x512 .f32) (main_arg4 : FVec F S64 .f32) (main_arg5 : FVec F S16x64 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S64x512 : Shape := ⟨2, ![64, 512]⟩
abbrev S64 : Shape := ⟨1, ![64]⟩
abbrev S16x64 : Shape := ⟨2, ![16, 64]⟩
abbrev S16 : Shape := ⟨1, ![16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S2000x512 : Shape := ⟨2, ![2000, 512]⟩
abbrev S2000x64 : Shape := ⟨2, ![2000, 64]⟩
abbrev S512x64 : Shape := ⟨2, ![512, 64]⟩
abbrev S3300000x64 : Shape := ⟨2, ![3300000, 64]⟩
abbrev S5000x64 : Shape := ⟨2, ![5000, 64]⟩
abbrev S5000x1 : Shape := ⟨2, ![5000, 1]⟩
abbrev S1x64 : Shape := ⟨2, ![1, 64]⟩
abbrev S10000x64 : Shape := ⟨2, ![10000, 64]⟩
abbrev S100000x16 : Shape := ⟨2, ![100000, 16]⟩
abbrev S2000x16 : Shape := ⟨2, ![2000, 16]⟩
abbrev S64x16 : Shape := ⟨2, ![64, 16]⟩
abbrev S3300000x16 : Shape := ⟨2, ![3300000, 16]⟩
abbrev S5000x16 : Shape := ⟨2, ![5000, 16]⟩
abbrev S1x16 : Shape := ⟨2, ![1, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 91
  | .vmem => 40
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S64x512, .f32⟩
  | .hbm, ⟨4, _⟩ => ⟨S64, .f32⟩
  | .hbm, ⟨5, _⟩ => ⟨S16x64, .f32⟩
  | .hbm, ⟨6, _⟩ => ⟨S16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000x1, .f32⟩
  | .hbm, ⟨56, _⟩ => ⟨S3300000x1, .f32⟩
  | .hbm, ⟨57, _⟩ => ⟨S100000x64, .f32⟩
  | .hbm, ⟨58, _⟩ => ⟨S_, .i32⟩
  | .hbm, ⟨59, _⟩ => ⟨S3300000, .i32⟩
  | .hbm, ⟨60, _⟩ => ⟨S3300000, .i1⟩
  | .hbm, ⟨61, _⟩ => ⟨S_, .i32⟩
  | .hbm, ⟨62, _⟩ => ⟨S3300000, .i32⟩
  | .hbm, ⟨63, _⟩ => ⟨S3300000, .i32⟩
  | .hbm, ⟨64, _⟩ => ⟨S3300000, .i32⟩
  | .hbm, ⟨65, _⟩ => ⟨S3300000x1, .i32⟩
  | .hbm, ⟨66, _⟩ => ⟨S3300000x64, .f32⟩
  | .hbm, ⟨67, _⟩ => ⟨S3300000x64, .f32⟩
  | .hbm, ⟨68, _⟩ => ⟨S_, .f32⟩
  | .hbm, ⟨69, _⟩ => ⟨S100000x64, .f32⟩
  | .hbm, ⟨70, _⟩ => ⟨S3300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x16, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x16, .f32⟩
  | .hbm, ⟨84, _⟩ => ⟨S3300000x16, .f32⟩
  | .hbm, ⟨85, _⟩ => ⟨S_, .f32⟩
  | .hbm, ⟨86, _⟩ => ⟨S100000x16, .f32⟩
  | .hbm, ⟨87, _⟩ => ⟨S3300000x1, .i32⟩
  | .hbm, ⟨88, _⟩ => ⟨S100000x16, .f32⟩
  | .hbm, ⟨89, _⟩ => ⟨S1x16, .f32⟩
  | .hbm, ⟨90, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S64x512, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S2000x64, .f32⟩
  | .local _ .vmem, ⟨21, _⟩ => ⟨S2000x64, .f32⟩
  | .local _ .vmem, ⟨22, _⟩ => ⟨S16x64, .f32⟩
  | .local _ .vmem, ⟨23, _⟩ => ⟨S2000x16, .f32⟩
  | .local _ .vmem, ⟨24, _⟩ => ⟨S2000x16, .f32⟩
  | .local _ .vmem, ⟨25, _⟩ => ⟨S5000x16, .f32⟩
  | .local _ .vmem, ⟨26, _⟩ => ⟨S5000x16, .f32⟩
  | .local _ .vmem, ⟨27, _⟩ => ⟨S5000x1, .f32⟩
  | .local _ .vmem, ⟨28, _⟩ => ⟨S5000x1, .f32⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S5000x16, .f32⟩
  | .local _ .vmem, ⟨34, _⟩ => ⟨S5000x16, .f32⟩
  | .local _ .vmem, ⟨35, _⟩ => ⟨S10000x16, .f32⟩
  | .local _ .vmem, ⟨36, _⟩ => ⟨S10000x16, .f32⟩
  | .local _ .vmem, ⟨37, _⟩ => ⟨S1x16, .f32⟩
  | .local _ .vmem, ⟨38, _⟩ => ⟨S10000x16, .f32⟩
  | .local _ .vmem, ⟨39, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![660], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![660], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S2000x64_S2000x64_0_0 : ∀ a, (![0, 0] : Fin 2 → Nat) a + S2000x64.size a ≤ S2000x64.size a
  h_S2000x64 : 0 < S2000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S2000x64_S2000x64 : S2000x64.ShapeCasts S2000x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S2000x16_S2000x16_0_0 : ∀ a, (![0, 0] : Fin 2 → Nat) a + S2000x16.size a ≤ S2000x16.size a
  h_S2000x16 : 0 < S2000x16.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S5000x1_S5000x16 : S5000x1.Broadcasts S5000x16
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x64_S2000x64_1_0_0_1_n_n_wf : DotDims.WF S2000x512 S512x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S2000x64_S64x16_S2000x16_1_0_0_1_n_n_wf : DotDims.WF S2000x64 S64x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S3300000x64.size a
  hwx1_0 : ∀ i : grid1.Coords, EltTy.bits .f32 = 32 ∨ (Rect.block (s := S3300000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S3300000x1.size a
  hwx1_1 : ∀ i : grid1.Coords, EltTy.bits .f32 = 32 ∨ (Rect.block (s := S3300000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S3300000x1.size a
  hwx1_2 : ∀ i : grid1.Coords, EltTy.bits .f32 = 32 ∨ (Rect.block (s := S3300000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S3300000x1.size a
  hwx1_3 : ∀ i : grid1.Coords, EltTy.bits .f32 = 32 ∨ (Rect.block (s := S3300000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S3300000x64.size a
  hwx1_4 : ∀ i : grid1.Coords, EltTy.bits .f32 = 32 ∨ (Rect.block (s := S3300000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x64.size a ≤ S16x64.size a
  hwx3_1 : ∀ i : grid3.Coords, EltTy.bits .f32 = 32 ∨ (Rect.block (s := S16x64) S16x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S3300000x16.size a
  hwx4_0 : ∀ i : grid4.Coords, EltTy.bits .f32 = 32 ∨ (Rect.block (s := S3300000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S3300000x1.size a
  hwx4_1 : ∀ i : grid4.Coords, EltTy.bits .f32 = 32 ∨ (Rect.block (s := S3300000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S3300000x1.size a
  hwx4_2 : ∀ i : grid4.Coords, EltTy.bits .f32 = 32 ∨ (Rect.block (s := S3300000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S3300000x1.size a
  hwx4_3 : ∀ i : grid4.Coords, EltTy.bits .f32 = 32 ∨ (Rect.block (s := S3300000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x16.size a ≤ S3300000x16.size a
  hwx4_4 : ∀ i : grid4.Coords, EltTy.bits .f32 = 32 ∨ (Rect.block (s := S3300000x16) S5000x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v34) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v58) S5000x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v61) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S64x512 : Shape := ⟨2, ![64, 512]⟩
abbrev S64 : Shape := ⟨1, ![64]⟩
abbrev S16x64 : Shape := ⟨2, ![16, 64]⟩
abbrev S16 : Shape := ⟨1, ![16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S512x64 : Shape := ⟨2, ![512, 64]⟩
abbrev S100000x64 : Shape := ⟨2, ![100000, 64]⟩
abbrev S3300000x1 : Shape := ⟨2, ![3300000, 1]⟩
abbrev S3300000x64 : Shape := ⟨2, ![3300000, 64]⟩
abbrev S1x64 : Shape := ⟨2, ![1, 64]⟩
abbrev S64x16 : Shape := ⟨2, ![64, 16]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 155
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S64x512, .f32⟩
  | 4 => ⟨S64, .f32⟩
  | 5 => ⟨S16x64, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S512x64, .f32⟩
  | 18 => ⟨S100000x64, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x64, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S64x16, .f32⟩
  | 81 => ⟨S100000x16, .f32⟩
  | 82 => ⟨S_, .f32⟩
  | 83 => ⟨S100000, .f32⟩
  | 84 => ⟨S3300000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .i1⟩
  | 92 => ⟨S_, .f32⟩
  | 93 => ⟨S_, .f32⟩
  | 94 => ⟨S100000, .f32⟩
  | 95 => ⟨S100000, .f32⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000, .f32⟩
  | 120 => ⟨S3300000, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x512, .f32⟩

abbrev hbmTy0_1 (i : Nat) : BufTy := match i % 128 with
  | 0 => ⟨S3300000x1, .i32⟩
  | 1 => ⟨S3300000x16, .f32⟩
  | 2 => ⟨S3300000x1, .f32⟩
  | 3 => ⟨S3300000x16, .f32⟩
  | 4 => ⟨S3300000x16, .f32⟩
  | 5 => ⟨S_, .f32⟩
  | 6 => ⟨S100000x16, .f32⟩
  | 7 => ⟨S3300000x1, .i32⟩
  | 8 => ⟨S100000x16, .f32⟩
  | 9 => ⟨S1x16, .f32⟩
  | 10 => ⟨S100000x16, .f32⟩
  | 11 => ⟨S100000x16, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x16, .f32⟩
  | 19 => ⟨S100000x16, .f32⟩
  | 20 => ⟨S100000x16, .f32⟩
  | 21 => ⟨S_, .f32⟩
  | 22 => ⟨S100000, .f32⟩
  | 23 => ⟨S100000x1, .f32⟩
  | 24 => ⟨S100000x1, .f32⟩
  | 25 => ⟨S100000x16, .f32⟩
  | 26 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_call3_v0 : Ref sig .tc := ⟨.hbm, 93, rfl⟩
abbrev main_call3_v1 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_call4_v0 : Ref sig .tc := ⟨.hbm, 98, rfl⟩
abbrev main_call4_v1 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_c_17 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_c_19 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_20 : Ref sig .tc := ⟨.hbm, 121, rfl⟩
abbrev main_v82 : Ref sig .tc := ⟨.hbm, 122, rfl⟩
abbrev main_v83 : Ref sig .tc := ⟨.hbm, 123, rfl⟩
abbrev main_c_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_22 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call5_cst : Ref sig .tc := ⟨.hbm, 140, rfl⟩
abbrev main_call5_v0 : Ref sig .tc := ⟨.hbm, 141, rfl⟩
abbrev main_call5_cst_0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_v6 : Ref sig .tc := ⟨.hbm, 148, rfl⟩
abbrev main_call5_cst_1 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_v98 : Ref sig .tc := ⟨.hbm, 154, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  transposes_S64x512_S512x64_1_0 : S64x512.Transposes [1, 0] S512x64
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S16x64_S64x16_1_0 : S16x64.Transposes [1, 0] S64x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel program's run with its result named.

  @main is fifteen segments — nine stretches of host operations and six pipelined regions. The generated frame certificate
  states the buffer contents at every segment boundary as a fold from the launch memory, and proves that every weakly
  fair execution ends with each unscoped buffer at the last boundary's contents. Here that run is stated once more with
  the result buffer read as well as the arguments.
-/
import proofs.«127246_j2499670966350_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the result named: at the compiled mesh, from any memory with zero counters, every weakly fair execution of
    @main terminates, nothing faulting, and every final state has @main's result buffer at the last boundary's contents
    of the fold through @main (region 5's exit) and the argument arrays as launched: the launch over the program's
    fifteen segments, the last thread state read against the final state. -/
theorem run_value : θ_run defs (onTc (τ := τ) (main (F := F))) ⟨m, fun _ => 0, ρ⟩ (fun r => ∀ c : Dev nD,
      r.2.mem ((c.tc : Thread nD τ).loc main_v63) = W15 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v63 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.Hand

end
-- ==== Proof.KernelChainA.lean ====
/-
  The buffers of the program before its first pipelined region, each read as a stage of the reference.

  The host operations that precede the first region build the edge list with one self-loop per node (row and
  column indices, edge weights extended by ones), sum the weights into each node's degree, and take its inverse
  square root where the degree is positive (zero elsewhere); the per-edge factor columns are gathered from that
  vector at the row and at the column index. The reference applies the same operations in the same order, so
  each buffer, read through the fold of host operations over the launch memory, is the reference's stage of the
  same name applied to the argument arrays.
-/
import proofs.«127246_j2499670966350_1_alg».proof.Proof.Gen.KernelIdeal.Frame
import proofs.«127246_j2499670966350_1_alg».proof.Proof.ReadP

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-! ## What each stretch of host operations writes, and that it leaves every other buffer alone -/

/-- The references the first stretch writes. -/
abbrev ops0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_cst_3]
theorem ops0_writes : (hostOps0 : List (HloOp τ sig (Elt Ideal))).Forall fun op => op.writes ⊆ (ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (r : Ref sig .tc) (h : r ∉ ops0_W) : W1 m ρ c (Proc.devRef .tc r) = W0 m ρ c (Proc.devRef .tc r) :=
  StableHlo.after_of_writes_sub hostOps0 _ ops0_writes h
/-- The references the first `where` writes. -/
abbrev ops01_W : List (Ref sig .tc) := [main_call0_v0, main_call0_v1, main_v16]
theorem ops01_writes : (hostOps0_1 : List (HloOp τ sig (Elt Ideal))).Forall fun op => op.writes ⊆ (ops01_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W2_of (r : Ref sig .tc) (h : r ∉ ops01_W) : W2 m ρ c (Proc.devRef .tc r) = W1 m ρ c (Proc.devRef .tc r) :=
  StableHlo.after_of_writes_sub hostOps0_1 _ ops01_writes h
/-- The references the inverse square root's stretch writes. -/
abbrev ops02_W : List (Ref sig .tc) := [main_v17, main_cst_4]
theorem ops02_writes : (hostOps0_2 : List (HloOp τ sig (Elt Ideal))).Forall fun op => op.writes ⊆ (ops02_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W3_of (r : Ref sig .tc) (h : r ∉ ops02_W) : W3 m ρ c (Proc.devRef .tc r) = W2 m ρ c (Proc.devRef .tc r) :=
  StableHlo.after_of_writes_sub hostOps0_2 _ ops02_writes h
/-- The references the second `where` writes. -/
abbrev ops03_W : List (Ref sig .tc) := [main_call1_v0, main_call1_v1, main_v18]
theorem ops03_writes : (hostOps0_3 : List (HloOp τ sig (Elt Ideal))).Forall fun op => op.writes ⊆ (ops03_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W4_of (r : Ref sig .tc) (h : r ∉ ops03_W) : W4 m ρ c (Proc.devRef .tc r) = W3 m ρ c (Proc.devRef .tc r) :=
  StableHlo.after_of_writes_sub hostOps0_3 _ ops03_writes h
/-- The references the gathers' stretch writes. -/
abbrev ops04_W : List (Ref sig .tc) := [main_c, main_v19, main_v20, main_c_5, main_v21, main_v22, main_v23, main_v24, main_v25, main_v26, main_c_6, main_v27, main_v28, main_c_7, main_v29, main_v30, main_v31, main_v32, main_v33, main_v34, main_v35]
theorem ops04_writes : (hostOps0_4 : List (HloOp τ sig (Elt Ideal))).Forall fun op => op.writes ⊆ (ops04_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W5_of (r : Ref sig .tc) (h : r ∉ ops04_W) : W5 m ρ c (Proc.devRef .tc r) = W4 m ρ c (Proc.devRef .tc r) :=
  StableHlo.after_of_writes_sub hostOps0_4 _ ops04_writes h

/-! ## The arguments stay as launched through the five stretches -/

theorem W5_arg0 : W5 m ρ c (Proc.devRef .tc main_arg0) = (m ((c : Thread nD τ).loc main_arg0)) :=
  (W5_of m ρ c main_arg0 (by decide)).trans <| (W4_of m ρ c main_arg0 (by decide)).trans <| (W3_of m ρ c main_arg0 (by decide)).trans <|
    (W2_of m ρ c main_arg0 (by decide)).trans <| (W1_of m ρ c main_arg0 (by decide)).trans rfl
theorem W5_arg3 : W5 m ρ c (Proc.devRef .tc main_arg3) = (m ((c : Thread nD τ).loc main_arg3)) :=
  (W5_of m ρ c main_arg3 (by decide)).trans <| (W4_of m ρ c main_arg3 (by decide)).trans <| (W3_of m ρ c main_arg3 (by decide)).trans <|
    (W2_of m ρ c main_arg3 (by decide)).trans <| (W1_of m ρ c main_arg3 (by decide)).trans rfl
theorem W5_arg4 : W5 m ρ c (Proc.devRef .tc main_arg4) = (m ((c : Thread nD τ).loc main_arg4)) :=
  (W5_of m ρ c main_arg4 (by decide)).trans <| (W4_of m ρ c main_arg4 (by decide)).trans <| (W3_of m ρ c main_arg4 (by decide)).trans <|
    (W2_of m ρ c main_arg4 (by decide)).trans <| (W1_of m ρ c main_arg4 (by decide)).trans rfl
theorem W5_arg5 : W5 m ρ c (Proc.devRef .tc main_arg5) = (m ((c : Thread nD τ).loc main_arg5)) :=
  (W5_of m ρ c main_arg5 (by decide)).trans <| (W4_of m ρ c main_arg5 (by decide)).trans <| (W3_of m ρ c main_arg5 (by decide)).trans <|
    (W2_of m ρ c main_arg5 (by decide)).trans <| (W1_of m ρ c main_arg5 (by decide)).trans rfl
theorem W5_arg6 : W5 m ρ c (Proc.devRef .tc main_arg6) = (m ((c : Thread nD τ).loc main_arg6)) :=
  (W5_of m ρ c main_arg6 (by decide)).trans <| (W4_of m ρ c main_arg6 (by decide)).trans <| (W3_of m ρ c main_arg6 (by decide)).trans <|
    (W2_of m ρ c main_arg6 (by decide)).trans <| (W1_of m ρ c main_arg6 (by decide)).trans rfl

/-! ## After the first stretch: the edge list, the weights, the degree and its two sign tests -/

/-- The row indices with the self-loops appended. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl
/-- The column indices with the self-loops appended. -/
theorem W1_v6 : W1 m ρ c (Proc.devRef .tc main_v6) = val_main_v6 (F := Ideal) (m ((c : Thread nD τ).loc main_arg1)) := by
  show StableHlo.after hostOps0 (W0 m ρ c) (Proc.devRef .tc main_v6) = _
  after_results
  rfl
/-- The edge weights with a one for each self-loop. -/
theorem W1_v8 : W1 m ρ c (Proc.devRef .tc main_v8) = val_main_v8 (F := Ideal) (m ((c : Thread nD τ).loc main_arg2)) := by
  show StableHlo.after hostOps0 (W0 m ρ c) (Proc.devRef .tc main_v8) = _
  after_results
  rfl
/-- The degree: the weights summed at each edge's column. -/
theorem W1_v11 : W1 m ρ c (Proc.devRef .tc main_v11) = val_main_v13 (F := Ideal) (m ((c : Thread nD τ).loc main_arg1)) (m ((c : Thread nD τ).loc main_arg2)) := by
  show StableHlo.after hostOps0 (W0 m ρ c) (Proc.devRef .tc main_v11) = _
  after_results
  rfl
/-- Where the degree is positive (the test the second `where` uses). -/
theorem W1_v13 : W1 m ρ c (Proc.devRef .tc main_v13) = val_main_v15 (F := Ideal) (m ((c : Thread nD τ).loc main_arg1)) (m ((c : Thread nD τ).loc main_arg2)) := by
  show StableHlo.after hostOps0 (W0 m ρ c) (Proc.devRef .tc main_v13) = _
  after_results
  rfl
/-- Where the degree is positive (the test the first `where` uses). -/
theorem W1_v15 : W1 m ρ c (Proc.devRef .tc main_v15) = val_main_v17 (F := Ideal) (m ((c : Thread nD τ).loc main_arg1)) (m ((c : Thread nD τ).loc main_arg2)) := by
  show StableHlo.after hostOps0 (W0 m ρ c) (Proc.devRef .tc main_v15) = _
  after_results
  rfl
/-- The constant one. -/
theorem W1_cst_3 : W1 m ρ c (Proc.devRef .tc main_cst_3) = val_main_cst_3 (F := Ideal) := by
  show StableHlo.after hostOps0 (W0 m ρ c) (Proc.devRef .tc main_cst_3) = _
  after_results
  rfl

/-! ## The first `where`: the degree, or one where it is not positive -/

/-- The degree with ones at the nodes of no positive degree. -/
theorem W2_v16 : W2 m ρ c (Proc.devRef .tc main_v16) = val_main_v18 (F := Ideal) (m ((c : Thread nD τ).loc main_arg1)) (m ((c : Thread nD τ).loc main_arg2)) := by
  show StableHlo.after hostOps0_1 (W1 m ρ c) (Proc.devRef .tc main_v16) = _
  have h0 := W1_v15 m ρ c
  have h1 := W1_v11 m ρ c
  have h2 := W1_cst_3 m ρ c
  generalize W1 m ρ c = V at h0 h1 h2 ⊢
  after_results
  show select (V (Proc.devRef .tc main_v15) : (⟨S100000, .i1⟩ : BufTy).Contents (Elt Ideal)) (V (Proc.devRef .tc main_v11) : (⟨S100000, .f32⟩ : BufTy).Contents (Elt Ideal))
    (broadcastInDim S100000 ![] bcast_S_S100000 (id (V (Proc.devRef .tc main_cst_3) : (⟨S_, .f32⟩ : BufTy).Contents (Elt Ideal)))) = _
  rw [h0, h1, h2]
  rfl
theorem W2_v3 : W2 m ρ c (Proc.devRef .tc main_v3) = val_main_v3 (F := Ideal) (m ((c : Thread nD τ).loc main_arg1)) :=
  (W2_of m ρ c main_v3 (by decide)).trans (W1_v3 m ρ c)
theorem W2_v6 : W2 m ρ c (Proc.devRef .tc main_v6) = val_main_v6 (F := Ideal) (m ((c : Thread nD τ).loc main_arg1)) :=
  (W2_of m ρ c main_v6 (by decide)).trans (W1_v6 m ρ c)
theorem W2_v8 : W2 m ρ c (Proc.devRef .tc main_v8) = val_main_v8 (F := Ideal) (m ((c : Thread nD τ).loc main_arg2)) :=
  (W2_of m ρ c main_v8 (by decide)).trans (W1_v8 m ρ c)
theorem W2_v13 : W2 m ρ c (Proc.devRef .tc main_v13) = val_main_v15 (F := Ideal) (m ((c : Thread nD τ).loc main_arg1)) (m ((c : Thread nD τ).loc main_arg2)) :=
  (W2_of m ρ c main_v13 (by decide)).trans (W1_v13 m ρ c)

/-! ## The inverse square root -/

/-- The inverse square root of the guarded degree. -/
theorem W3_v17 : W3 m ρ c (Proc.devRef .tc main_v17) = val_main_v19 (F := Ideal) (m ((c : Thread nD τ).loc main_arg1)) (m ((c : Thread nD τ).loc main_arg2)) := by
  show StableHlo.after hostOps0_2 (W2 m ρ c) (Proc.devRef .tc main_v17) = _
  have h0 := W2_v16 m ρ c
  generalize W2 m ρ c = V at h0 ⊢
  after_results
  rw [h0]
  rfl
/-- The constant zero. -/
theorem W3_cst_4 : W3 m ρ c (Proc.devRef .tc main_cst_4) = val_main_cst_4 (F := Ideal) := by
  show StableHlo.after hostOps0_2 (W2 m ρ c) (Proc.devRef .tc main_cst_4) = _
  generalize W2 m ρ c = V
  after_results
  rfl
theorem W3_v3 : W3 m ρ c (Proc.devRef .tc main_v3) = val_main_v3 (F := Ideal) (m ((c : Thread nD τ).loc main_arg1)) :=
  (W3_of m ρ c main_v3 (by decide)).trans (W2_v3 m ρ c)
theorem W3_v6 : W3 m ρ c (Proc.devRef .tc main_v6) = val_main_v6 (F := Ideal) (m ((c : Thread nD τ).loc main_arg1)) :=
  (W3_of m ρ c main_v6 (by decide)).trans (W2_v6 m ρ c)
theorem W3_v8 : W3 m ρ c (Proc.devRef .tc main_v8) = val_main_v8 (F := Ideal) (m ((c : Thread nD τ).loc main_arg2)) :=
  (W3_of m ρ c main_v8 (by decide)).trans (W2_v8 m ρ c)
theorem W3_v13 : W3 m ρ c (Proc.devRef .tc main_v13) = val_main_v15 (F := Ideal) (m ((c : Thread nD τ).loc main_arg1)) (m ((c : Thread nD τ).loc main_arg2)) :=
  (W3_of m ρ c main_v13 (by decide)).trans (W2_v13 m ρ c)

/-! ## The second `where`: the inverse root degree, or zero where the degree is not positive -/

/-- The inverse root degree. -/
theorem W4_v18 : W4 m ρ c (Proc.devRef .tc main_v18) = val_main_v20 (F := Ideal) (m ((c : Thread nD τ).loc main_arg1)) (m ((c : Thread nD τ).loc main_arg2)) := by
  show StableHlo.after hostOps0_3 (W3 m ρ c) (Proc.devRef .tc main_v18) = _
  have h0 := W3_v13 m ρ c
  have h1 := W3_v17 m ρ c
  have h2 := W3_cst_4 m ρ c
  generalize W3 m ρ c = V at h0 h1 h2 ⊢
  after_results
  show select (V (Proc.devRef .tc main_v13) : (⟨S100000, .i1⟩ : BufTy).Contents (Elt Ideal)) (V (Proc.devRef .tc main_v17) : (⟨S100000, .f32⟩ : BufTy).Contents (Elt Ideal))
    (broadcastInDim S100000 ![] bcast_S_S100000 (id (V (Proc.devRef .tc main_cst_4) : (⟨S_, .f32⟩ : BufTy).Contents (Elt Ideal)))) = _
  rw [h0, h1, h2]
  rfl
theorem W4_v3 : W4 m ρ c (Proc.devRef .tc main_v3) = val_main_v3 (F := Ideal) (m ((c : Thread nD τ).loc main_arg1)) :=
  (W4_of m ρ c main_v3 (by decide)).trans (W3_v3 m ρ c)
theorem W4_v6 : W4 m ρ c (Proc.devRef .tc main_v6) = val_main_v6 (F := Ideal) (m ((c : Thread nD τ).loc main_arg1)) :=
  (W4_of m ρ c main_v6 (by decide)).trans (W3_v6 m ρ c)
theorem W4_v8 : W4 m ρ c (Proc.devRef .tc main_v8) = val_main_v8 (F := Ideal) (m ((c : Thread nD τ).loc main_arg2)) :=
  (W4_of m ρ c main_v8 (by decide)).trans (W3_v8 m ρ c)

/-! ## The per-edge factors, gathered at the row and at the column index, and kept as columns -/

set_option maxHeartbeats 1000000 in
/-- The source's inverse root degree of each edge, as a column. -/
theorem W5_v26 : W5 m ρ c (Proc.devRef .tc main_v26) = broadcastInDim S3300000x1 ![0] bcast_S3300000_S3300000x1_0 (val_main_v27 (F := Ideal) (m ((c : Thread nD τ).loc main_arg1)) (m ((c : Thread nD τ).loc main_arg2))) := by
  show StableHlo.after hostOps0_4 (W4 m ρ c) (Proc.devRef .tc main_v26) = _
  have h0 := W4_v18 m ρ c
  have h1 := W4_v3 m ρ c
  generalize W4 m ρ c = V at h0 h1 ⊢
  after_results
  rw [h0, h1]
  rfl
set_option maxHeartbeats 1000000 in
/-- The target's inverse root degree of each edge, as a column. -/
theorem W5_v34 : W5 m ρ c (Proc.devRef .tc main_v34) = broadcastInDim S3300000x1 ![0] bcast_S3300000_S3300000x1_0 (val_main_v35 (F := Ideal) (m ((c : Thread nD τ).loc main_arg1)) (m ((c : Thread nD τ).loc main_arg2))) := by
  show StableHlo.after hostOps0_4 (W4 m ρ c) (Proc.devRef .tc main_v34) = _
  have h0 := W4_v18 m ρ c
  have h1 := W4_v6 m ρ c
  generalize W4 m ρ c = V at h0 h1 ⊢
  after_results
  rw [h0, h1]
  rfl
/-- The edge weights, as a column. -/
theorem W5_v35 : W5 m ρ c (Proc.devRef .tc main_v35) = broadcastInDim S3300000x1 ![0] bcast_S3300000_S3300000x1_0 (val_main_v8 (F := Ideal) (m ((c : Thread nD τ).loc main_arg2))) := by
  show StableHlo.after hostOps0_4 (W4 m ρ c) (Proc.devRef .tc main_v35) = _
  have h0 := W4_v8 m ρ c
  generalize W4 m ρ c = V at h0 ⊢
  after_results
  rw [h0]
theorem W5_v3 : W5 m ρ c (Proc.devRef .tc main_v3) = val_main_v3 (F := Ideal) (m ((c : Thread nD τ).loc main_arg1)) :=
  (W5_of m ρ c main_v3 (by decide)).trans (W4_v3 m ρ c)
theorem W5_v6 : W5 m ρ c (Proc.devRef .tc main_v6) = val_main_v6 (F := Ideal) (m ((c : Thread nD τ).loc main_arg1)) :=
  (W5_of m ρ c main_v6 (by decide)).trans (W4_v6 m ρ c)

end Cert.KernelIdeal.Hand

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibLogSoftmaxRow.lean ====
/-
  A row-wise log-softmax read at an entry, on the extended reals.

  For an `[a, b]` array `z` the computation "subtract the row's largest entry, exponentiate, sum the row, take the
  logarithm, subtract" — the two row reductions kept as `[a, 1]` columns and broadcast back over the lanes — is, at
  entry `(p, c)`, `(z (p, c) − m) − log (Σ_k exp (z (p, k) − m))` with `m` the fold of `max` from `−∞` over row `p`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LogSoftmaxRow

open Idealize.ShloMosaic Idealize.ShloMosaic.ValueIdx

variable {a b : ℕ}

/-- The largest entry of row `p`: the fold of `max` from `−∞`. -/
def rowTop (z : FVec Ideal ⟨2, ![a, b]⟩ .f32) (p : Fin a) : EReal :=
  (Finset.univ : Finset (Fin b)).fold max ⊥ (fun k => z (ix2 p k))

/-- The binary32 word of `−∞` denotes `⊥`. -/
theorem ofBits_neg_inf : Ideal.ofBits .f32 0xFF800000#32 = (⊥ : EReal) := by
  simp [Ideal.ofBits, Ideal.ieee]

/-- The lane maximum from `−∞`, kept as a column and broadcast back, reads at `(p, c)` the row's largest entry. -/
theorem top_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0xFF800000#32 : BitVec 32) = FKind.maximumf.neutral .f32 (.inl rfl)) (p : Fin a) (c : Fin b) :
    broadcastTo ⟨2, ![a, b]⟩ (shapeCast ⟨2, ![a, 1]⟩ (multiReduction .maximumf [1] ⟨1, ![a]⟩ z 0xFF800000#32 hred (.inl rfl) hacc) hc) hb (ix2 p c)
      = rowTop z p := by
  have e1 : broadcastTo ⟨2, ![a, b]⟩ (shapeCast ⟨2, ![a, 1]⟩ (multiReduction .maximumf [1] ⟨1, ![a]⟩ z 0xFF800000#32 hred (.inl rfl) hacc) hc) hb (ix2 p c)
      = shapeCast ⟨2, ![a, 1]⟩ (multiReduction .maximumf [1] ⟨1, ![a]⟩ z 0xFF800000#32 hred (.inl rfl) hacc) hc (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .maximumf [1] ⟨1, ![a]⟩ z 0xFF800000#32 hred (.inl rfl) hacc) hc (ix2 p (0 : Fin 1))
      = multiReduction .maximumf [1] ⟨1, ![a]⟩ z 0xFF800000#32 hred (.inl rfl) hacc (ix1 p) :=
    shapeCast_apply _ hc _ _ (by
      rw [Shape.rowMajor_val_two, Shape.rowMajor_val_one]
      show p.val = p.val * 1 + 0
      omega)
  rw [e1, e2]
  refine (Ideal.multiReduction_maximumf_single z 0xFF800000#32 hred (.inl rfl) hacc (ix1 p)).trans ?_
  rw [show (FloatOps.ofBits (F := Ideal) .f32 0xFF800000#32 : EReal) = ⊥ from ofBits_neg_inf]
  unfold rowTop
  refine congrArg (fun f => (Finset.univ : Finset (Fin b)).fold max ⊥ f) (funext fun k => ?_)
  exact congrArg z (funext fun ax => Fin.ext (by
    match ax with
    | ⟨0, _⟩ => rfl
    | ⟨1, _⟩ => rfl))

/-- The lane sum into zero of an array `w`, kept as a column, its logarithm broadcast back, reads at `(p, c)` the
    logarithm of row `p`'s sum. -/
theorem logSum_apply (w : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0x00000000#32 : BitVec 32) = 0x00000000#32) (p : Fin a) (c : Fin b) :
    broadcastTo ⟨2, ![a, b]⟩ (log (shapeCast ⟨2, ![a, 1]⟩ (multiReduction .add [1] ⟨1, ![a]⟩ w 0x00000000#32 hred (.inl rfl) hacc) hc)) hb (ix2 p c)
      = Ideal.log (∑ k : Fin b, w (ix2 p k)) := by
  have e1 : broadcastTo ⟨2, ![a, b]⟩ (log (shapeCast ⟨2, ![a, 1]⟩ (multiReduction .add [1] ⟨1, ![a]⟩ w 0x00000000#32 hred (.inl rfl) hacc) hc)) hb (ix2 p c)
      = log (shapeCast ⟨2, ![a, 1]⟩ (multiReduction .add [1] ⟨1, ![a]⟩ w 0x00000000#32 hred (.inl rfl) hacc) hc) (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .add [1] ⟨1, ![a]⟩ w 0x00000000#32 hred (.inl rfl) hacc) hc (ix2 p (0 : Fin 1))
      = multiReduction .add [1] ⟨1, ![a]⟩ w 0x00000000#32 hred (.inl rfl) hacc (ix1 p) :=
    shapeCast_apply _ hc _ _ (by
      rw [Shape.rowMajor_val_two, Shape.rowMajor_val_one]
      show p.val = p.val * 1 + 0
      omega)
  rw [e1]
  show Ideal.log (shapeCast ⟨2, ![a, 1]⟩ (multiReduction .add [1] ⟨1, ![a]⟩ w 0x00000000#32 hred (.inl rfl) hacc) hc (ix2 p (0 : Fin 1))) = _
  rw [e2]
  refine congrArg Ideal.log ?_
  refine (Ideal.multiReduction_add_single w 0x00000000#32 hred (.inl rfl) hacc (ix1 p)).trans ?_
  exact Finset.sum_congr rfl fun k _ => congrArg w (funext fun ax => Fin.ext (by
    match ax with
    | ⟨0, _⟩ => rfl
    | ⟨1, _⟩ => rfl))

/-- The whole row-wise log-softmax at entry `(p, c)`. -/
theorem logSoftmax_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc1 : (0xFF800000#32 : BitVec 32) = FKind.maximumf.neutral .f32 (.inl rfl))
    (hacc2 : (0x00000000#32 : BitVec 32) = 0x00000000#32) (p : Fin a) (c : Fin b) :
    subf (subf z (broadcastTo ⟨2, ![a, b]⟩ (shapeCast ⟨2, ![a, 1]⟩ (multiReduction .maximumf [1] ⟨1, ![a]⟩ z 0xFF800000#32 hred (.inl rfl) hacc1) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z 0xFF800000#32 hred (.inl rfl) hacc1) hc) hb)))
          0x00000000#32 hred (.inl rfl) hacc2) hc)) hb) (ix2 p c)
      = (z (ix2 p c) - rowTop z p) - Ideal.log (∑ k : Fin b, Ideal.exp (z (ix2 p k) - rowTop z p)) := by
  rw [subf_apply, subf_apply, top_apply z hred hc hb hacc1 p c, logSum_apply _ hred hc hb hacc2 p c]
  refine congrArg (fun s => (z (ix2 p c) - rowTop z p) - Ideal.log s) (Finset.sum_congr rfl fun k _ => ?_)
  show Ideal.exp (subf z _ (ix2 p k)) = _
  rw [subf_apply, top_apply z hred hc hb hacc1 p k]

end Idealize.ShloMosaic.LogSoftmaxRow

end
-- ==== Proof.GcnSpec.lean ====
/-
  One graph-convolution network on the extended reals, layer by layer.

  Each piece is a whole-array function given entry by entry: the dense product of the node features with the
  transposed weights; the per-edge scaling of gathered rows by the symmetric normalisation
  (the source's inverse root degree times the edge weight, times the target's inverse root degree);
  the bias followed by the positive part; and the bias followed by the row-wise log-softmax.
-/
import Idealize.ShloMosaic.Lib.ValueIdx
import Idealize.ShloMosaic.PureOps.Ideal.Laws

noncomputable section

namespace Gcn

open Idealize.ShloMosaic Idealize.ShloMosaic.ValueIdx

variable {n k b : ℕ}

/-- The dense layer: entry (p, c) is the sum over j of x (p, j) · w (c, j). -/
def lin (x : FVec Ideal ⟨2, ![n, k]⟩ .f32) (w : FVec Ideal ⟨2, ![b, k]⟩ .f32) : FVec Ideal ⟨2, ![n, b]⟩ .f32 :=
  fun i => ∑ j : Fin k, x (ix2 (i 0) j) * w (ix2 (i 1) j)

/-- The message of an edge: row e of the gathered features times (dr e · ew e) · dc e. -/
def scale (h : FVec Ideal ⟨2, ![n, b]⟩ .f32) (dr ew dc : FVec Ideal ⟨2, ![n, 1]⟩ .f32) : FVec Ideal ⟨2, ![n, b]⟩ .f32 :=
  fun i => h i * ((dr (ix2 (i 0) (0 : Fin 1)) * ew (ix2 (i 0) (0 : Fin 1))) * dc (ix2 (i 0) (0 : Fin 1)))

/-- Bias, then the positive part: max (x (p, c) + bias c) 0. -/
def biasRelu (x : FVec Ideal ⟨2, ![n, b]⟩ .f32) (bias : FVec Ideal ⟨2, ![1, b]⟩ .f32) : FVec Ideal ⟨2, ![n, b]⟩ .f32 :=
  fun i => max (x i + bias (ix2 (0 : Fin 1) (i 1))) (Ideal.ofBits .f32 0x00000000#32)

/-- A row of scores with the bias added. -/
def biased (x : FVec Ideal ⟨2, ![n, b]⟩ .f32) (bias : FVec Ideal ⟨2, ![1, b]⟩ .f32) (p : Fin n) (c : Fin b) : EReal :=
  x (ix2 p c) + bias (ix2 (0 : Fin 1) c)

/-- The largest biased score of a row (the fold of max from −∞). -/
def rowTop (x : FVec Ideal ⟨2, ![n, b]⟩ .f32) (bias : FVec Ideal ⟨2, ![1, b]⟩ .f32) (p : Fin n) : EReal :=
  (Finset.univ : Finset (Fin b)).fold max ⊥ (fun c => biased x bias p c)

/-- Bias, then the row-wise log-softmax: with z the biased row and m its largest entry,
    (z c − m) − log (Σ exp (z k − m)). -/
def biasLogSoftmax (x : FVec Ideal ⟨2, ![n, b]⟩ .f32) (bias : FVec Ideal ⟨2, ![1, b]⟩ .f32) : FVec Ideal ⟨2, ![n, b]⟩ .f32 :=
  fun i => (biased x bias (i 0) (i 1) - rowTop x bias (i 0))
    - Ideal.log (∑ c : Fin b, Ideal.exp (biased x bias (i 0) c - rowTop x bias (i 0)))

end Gcn

end
-- ==== Proof.Pay.lean ====
/-
  What each kernel body stores, entry by entry, on the extended reals.

  A changed float format is the identity there, so the dense bodies are plain products of the loaded feature block
  with the transposed weight block; the scaling body multiplies a row by the product of its three per-edge factors;
  the last two bodies add the bias row and take the positive part, or the row-wise log-softmax.
-/
import proofs.«127246_j2499670966350_1_alg».proof.Proof.Gen.KernelIdeal.Skeleton
import proofs.«127246_j2499670966350_1_alg».proof.Proof.LibPlainDot
import proofs.«127246_j2499670966350_1_alg».proof.Proof.LibKeepdims
import proofs.«127246_j2499670966350_1_alg».proof.Proof.LibLogSoftmaxRow
import proofs.«127246_j2499670966350_1_alg».proof.Proof.GcnSpec
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The first dense body: entry (p, c) of the stored block is Σ_j x (p, j) · w (c, j). -/
theorem pay0_apply (v0 : Vec Ideal S2000x512 .f32) (v2 : Vec Ideal S64x512 .f32) (p : Fin 2000) (c : Fin 64) :
    k0_pay1 (F := Ideal) v0 v2 (ix2 p c) = ∑ j : Fin 512, v0 (ix2 p j) * v2 (ix2 c j) := by
  unfold k0_pay1
  dsimp only
  refine (PlainDot.matmul_zero_apply dot_S2000x512_S512x64_S2000x64_1_0_0_1_n_n none rfl rfl
    (hl0 := fun i q => by
      unfold DotDims.lhsIdx
      rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
      rfl)
    (hl1 := fun i q => dot_S2000x512_S512x64_S2000x64_1_0_0_1_n_n.lhsIdx_val_of_single rfl i q)
    (hr0 := fun i q => dot_S2000x512_S512x64_S2000x64_1_0_0_1_n_n.rhsIdx_val_of_single rfl i q)
    (hr1 := fun i q => by
      unfold DotDims.rhsIdx
      rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
      rfl)
    _ _ p c).trans ?_
  refine Finset.sum_congr rfl fun j _ => ?_
  rw [transpose_ix2_apply]
  rfl

/-- The second dense body: entry (p, c) of the stored block is Σ_j x (p, j) · w (c, j). -/
theorem pay3_apply (v0 : Vec Ideal S2000x64 .f32) (v3 : Vec Ideal S16x64 .f32) (p : Fin 2000) (c : Fin 16) :
    k3_pay1 (F := Ideal) v0 v3 (ix2 p c) = ∑ j : Fin 64, v0 (ix2 p j) * v3 (ix2 c j) := by
  unfold k3_pay1
  dsimp only
  refine (PlainDot.matmul_zero_apply dot_S2000x64_S64x16_S2000x16_1_0_0_1_n_n none rfl rfl
    (hl0 := fun i q => by
      unfold DotDims.lhsIdx
      rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
      rfl)
    (hl1 := fun i q => dot_S2000x64_S64x16_S2000x16_1_0_0_1_n_n.lhsIdx_val_of_single rfl i q)
    (hr0 := fun i q => dot_S2000x64_S64x16_S2000x16_1_0_0_1_n_n.rhsIdx_val_of_single rfl i q)
    (hr1 := fun i q => by
      unfold DotDims.rhsIdx
      rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
      rfl)
    _ _ p c).trans ?_
  refine Finset.sum_congr rfl fun j _ => ?_
  rw [transpose_ix2_apply, shapeCast_self]
  rfl

/-- The first scaling body: entry (p, c) is h (p, c) · ((dr p · ew p) · dc p). -/
theorem pay1_apply (v0 v2 v5 : Vec Ideal S5000x1 .f32) (v8 : Vec Ideal S5000x64 .f32) (p : Fin 5000) (c : Fin 64) :
    k1_pay1 (F := Ideal) v0 v2 v5 v8 (ix2 p c)
      = v8 (ix2 p c) * ((v0 (ix2 p (0 : Fin 1)) * v2 (ix2 p (0 : Fin 1))) * v5 (ix2 p (0 : Fin 1))) := by
  unfold k1_pay1
  rw [mulf_apply, Keepdims.broadcastTo_a1_ab_apply]
  simp only [shapeCast_self, mulf_apply]

/-- The second scaling body: entry (p, c) is h (p, c) · ((dr p · ew p) · dc p). -/
theorem pay4_apply (v0 v2 v5 : Vec Ideal S5000x1 .f32) (v8 : Vec Ideal S5000x16 .f32) (p : Fin 5000) (c : Fin 16) :
    k4_pay1 (F := Ideal) v0 v2 v5 v8 (ix2 p c)
      = v8 (ix2 p c) * ((v0 (ix2 p (0 : Fin 1)) * v2 (ix2 p (0 : Fin 1))) * v5 (ix2 p (0 : Fin 1))) := by
  unfold k4_pay1
  rw [mulf_apply, Keepdims.broadcastTo_a1_ab_apply]
  simp only [shapeCast_self, mulf_apply]

/-- The bias-and-positive-part body: entry (p, c) is max (x (p, c) + bias c) 0. -/
theorem pay2_apply (v0 : Vec Ideal S10000x64 .f32) (v2 : Vec Ideal S1x64 .f32) (p : Fin 10000) (c : Fin 64) :
    k2_pay1 (F := Ideal) v0 v2 (ix2 p c)
      = max (v0 (ix2 p c) + v2 (ix2 (0 : Fin 1) c)) (Ideal.ofBits .f32 0x00000000#32) := by
  unfold k2_pay1
  rw [maximumf_apply, addf_apply, broadcastTo_1b_ab_apply]
  simp only [shapeCast_self]
  rfl

/-- The bias-and-log-softmax body: with z the biased row and m its largest entry, entry (p, c) is
    (z c − m) − log (Σ_k exp (z k − m)). -/
theorem pay5_apply (v0 : Vec Ideal S10000x16 .f32) (v2 : Vec Ideal S1x16 .f32) (p : Fin 10000) (c : Fin 16) :
    k5_pay1 (F := Ideal) v0 v2 (ix2 p c)
      = (Gcn.biased v0 v2 p c - Gcn.rowTop v0 v2 p)
        - Ideal.log (∑ k : Fin 16, Ideal.exp (Gcn.biased v0 v2 p k - Gcn.rowTop v0 v2 p)) := by
  unfold k5_pay1
  have hz : ∀ (r : Fin 10000) (k : Fin 16),
      (addf (shapeCast S10000x16 v0 shapeCasts_S10000x16_S10000x16)
        (broadcastTo S10000x16 (shapeCast S1x16 v2 shapeCasts_S1x16_S1x16) broadcasts_S1x16_S10000x16)
          : FVec Ideal S10000x16 .f32) (ix2 r k)
        = Gcn.biased v0 v2 r k := by
    intro r k
    rw [addf_apply, broadcastTo_1b_ab_apply]
    simp only [shapeCast_self]
    rfl
  generalize (addf (shapeCast S10000x16 v0 shapeCasts_S10000x16_S10000x16)
    (broadcastTo S10000x16 (shapeCast S1x16 v2 shapeCasts_S1x16_S1x16) broadcasts_S1x16_S10000x16)
      : FVec Ideal S10000x16 .f32) = z at hz ⊢
  refine (LogSoftmaxRow.logSoftmax_apply z reduces_S10000x16_S10000 shapeCasts_S10000_S10000x1
    broadcasts_S10000x1_S10000x16 rfl rfl p c).trans ?_
  have htop : LogSoftmaxRow.rowTop z p = Gcn.rowTop v0 v2 p := by
    unfold LogSoftmaxRow.rowTop Gcn.rowTop
    exact congrArg (fun f => (Finset.univ : Finset (Fin 16)).fold max ⊥ f) (funext fun k => hz p k)
  rw [htop, hz p c]
  refine congrArg (fun s => (Gcn.biased v0 v2 p c - Gcn.rowTop v0 v2 p) - Ideal.log s) (Finset.sum_congr rfl fun k _ => ?_)
  rw [hz p k]

end Cert.KernelIdeal.Hand

end
-- ==== Proof.Region0.lean ====
/-
  The first dense layer as a whole array: the region's output is the node features times the transposed weights,
  each row block computed at its own grid point from the matching rows of the features and the whole weight array.
-/
import proofs.«127246_j2499670966350_1_alg».proof.Proof.Gen.KernelIdeal.Frame
import proofs.«127246_j2499670966350_1_alg».proof.Proof.Pay
import proofs.«127246_j2499670966350_1_alg».proof.Proof.GcnSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2_0 : (![0, 0] : Fin 2 → Nat) = fun _ => 0 := funext fun a => by fin_cases a <;> rfl

/-- The index maps over the grid: a row-blocked window's block index is (t, 0), a whole window's (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Input window 0's block at point `t` is rows `2000·t … 2000·t + 1999` of its array. -/
theorem iblk0_0_apply (c : Dev nD) (t : Fin cfg0.N) (x : S2000x512.Idx) (i : S100000x512.Idx)
    (hi0 : (i 0).val = t.val * 2000 + (x 0).val) (hi1 : (i 1).val = (x 1).val) :
    (iblk0 V c 0 t : Vec Ideal S2000x512 .f32) x = (V c main_arg0 : S100000x512.Idx → EReal) i := by
  obtain ⟨e0, e1, e2, e3, e4, e5⟩ := idx0 t
  unfold iblk0
  rw [View.read_apply]
  show V c main_arg0 _ = V c main_arg0 _
  congr 1
  funext a
  apply Fin.ext
  match a with
  | ⟨0, _⟩ => show win0_0.index t 0 * 2000 + 1 * (x 0).val = (i 0).val; rw [e0, hi0]; omega
  | ⟨1, _⟩ => show win0_0.index t 1 * 512 + 1 * (x 1).val = (i 1).val; rw [e1, hi1]; omega

/-- Input window 1's block at point `t` is the whole of its array. -/
theorem iblk0_1_apply (c : Dev nD) (t : Fin cfg0.N) (x : S64x512.Idx) (i : S64x512.Idx)
    (hi0 : (i 0).val = (x 0).val) (hi1 : (i 1).val = (x 1).val) :
    (iblk0 V c 1 t : Vec Ideal S64x512 .f32) x = (V c main_arg3 : S64x512.Idx → EReal) i := by
  obtain ⟨e0, e1, e2, e3, e4, e5⟩ := idx0 t
  unfold iblk0
  rw [View.read_apply]
  show V c main_arg3 _ = V c main_arg3 _
  congr 1
  funext a
  apply Fin.ext
  match a with
  | ⟨0, _⟩ => show win0_1.index t 0 * 64 + 1 * (x 0).val = (i 0).val; rw [e2, hi0]; omega
  | ⟨1, _⟩ => show win0_1.index t 1 * 512 + 1 * (x 1).val = (i 1).val; rw [e3, hi1]; omega

/-- Entry `y` of the block the body stores at point `t` is the dense layer's entry at row `2000·t + y₀`. -/
theorem point0 (c : Dev nD) (t : Fin cfg0.N) (y : S2000x64.Idx) (i : S100000x64.Idx)
    (hi0 : (i 0).val = t.val * 2000 + (y 0).val) (hi1 : (i 1).val = (y 1).val) :
    k0_pay1 (F := Ideal) (iblk0 V c 0 t) (iblk0 V c 1 t) y = Gcn.lin (V c main_arg0) (V c main_arg3) i := by
  obtain ⟨p, q, rfl⟩ : ∃ (p : Fin 2000) (q : Fin 64), y = ix2 p q := ⟨y 0, y 1, eq_ix2 y⟩
  rw [pay0_apply]
  unfold Gcn.lin
  refine Finset.sum_congr rfl fun j _ => ?_
  rw [iblk0_0_apply V c t (ix2 p j) (ix2 (i 0) j) hi0 rfl, iblk0_1_apply V c t (ix2 q j) (ix2 (i 1) j) hi1 rfl]

/-- What point `t` writes back is block `t` of the layer's whole-array function of the arrays the region finds. -/
theorem flushed0 (c : Dev nD) (t : Fin cfg0.N) :
    (dat0 V c).flushed 2 t = ((cfg0.win 2).blk t).view.read (Elt Ideal) (Gcn.lin (V c main_arg0) (V c main_arg3)) := by
  show (cfg0.win 2).cut (grid0.coords t) ((dat0 V c).after 2 t) = _
  rw [after0_2]
  unfold out0_2
  rw [View.canon_unit_zero hz2_0]
  simp only [View.ld_unit_zero (S := S2000x512) hz2_0, View.ld_unit_zero (S := S64x512) hz2_0]
  obtain ⟨e0, e1, e2, e3, e4, e5⟩ := idx0 t
  funext y
  rw [View.read_apply]
  refine point0 V c t y (((cfg0.win 2).blk t).view.emb y) ?_ ?_
  · show win0_2.index t 0 * 2000 + 1 * (y 0).val = t.val * 2000 + (y 0).val
    rw [e4]; omega
  · show win0_2.index t 1 * 64 + 1 * (y 1).val = (y 1).val
    rw [e5]; omega

/-- An index of the output array is in point `t`'s block iff each coordinate is in the block's range. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v36).slice (win0_2.rect t)).set ↔ _
  rw [View.set_slice_whole, Rect.mem_set_unit]
  exact Iff.rfl

/-- The blocks tile the output array: row `r` lies in the block of point `r / 2000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 50 := N_0
  have ht : (i 0).val / 2000 < cfg0.N := by show (i 0).val / 2000 < grid0.N; rw [hN]; omega
  obtain ⟨e0, e1, e2, e3, e4, e5⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ 1 * 64 ≤ (i 1).val ∧ (i 1).val < win0_2.index ⟨(i 0).val / 2000, ht⟩ 1 * 64 + 64
    rw [e5]
    omega

/-- The output array after the region. -/
theorem final0 (c : Dev nD) : (dat0 V c).arrAt 2 cfg0.N = Gcn.lin (V c main_arg0) (V c main_arg3) :=
  (dat0 V c).arrAt_eq_of_cover 2 (Gcn.lin (V c main_arg0) (V c main_arg3)) (fun t _ => flushed0 V c t) (cover0)

end Cert.KernelIdeal.Hand

end
-- ==== Proof.Region1.lean ====
/-
  The first layer's messages as a whole array: every gathered row is multiplied by the product of its edge's three
  factors (the source's inverse root degree times the edge weight, times the target's inverse root degree), each
  block of 5000 edges at its own grid point.
-/
import proofs.«127246_j2499670966350_1_alg».proof.Proof.Gen.KernelIdeal.Frame
import proofs.«127246_j2499670966350_1_alg».proof.Proof.Pay
import proofs.«127246_j2499670966350_1_alg».proof.Proof.GcnSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2_1 : (![0, 0] : Fin 2 → Nat) = fun _ => 0 := funext fun a => by fin_cases a <;> rfl

/-- The index maps over the grid: a row-blocked window's block index is (t, 0), a whole window's (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0 :=
  (by decide +kernel : ∀ t : Fin grid1.N, _)

/-- Input window 0's block at point `t` is rows `5000·t … 5000·t + 4999` of its array. -/
theorem iblk1_0_apply (c : Dev nD) (t : Fin cfg1.N) (x : S5000x64.Idx) (i : S3300000x64.Idx)
    (hi0 : (i 0).val = t.val * 5000 + (x 0).val) (hi1 : (i 1).val = (x 1).val) :
    (iblk1 V c 0 t : Vec Ideal S5000x64 .f32) x = (V c main_v43 : S3300000x64.Idx → EReal) i := by
  obtain ⟨e0, e1, e2, e3, e4, e5, e6, e7, e8, e9⟩ := idx1 t
  unfold iblk1
  rw [View.read_apply]
  show V c main_v43 _ = V c main_v43 _
  congr 1
  funext a
  apply Fin.ext
  match a with
  | ⟨0, _⟩ => show win1_0.index t 0 * 5000 + 1 * (x 0).val = (i 0).val; rw [e0, hi0]; omega
  | ⟨1, _⟩ => show win1_0.index t 1 * 64 + 1 * (x 1).val = (i 1).val; rw [e1, hi1]; omega

/-- Input window 1's block at point `t` is rows `5000·t … 5000·t + 4999` of its array. -/
theorem iblk1_1_apply (c : Dev nD) (t : Fin cfg1.N) (x : S5000x1.Idx) (i : S3300000x1.Idx)
    (hi0 : (i 0).val = t.val * 5000 + (x 0).val) (hi1 : (i 1).val = (x 1).val) :
    (iblk1 V c 1 t : Vec Ideal S5000x1 .f32) x = (V c main_v26 : S3300000x1.Idx → EReal) i := by
  obtain ⟨e0, e1, e2, e3, e4, e5, e6, e7, e8, e9⟩ := idx1 t
  unfold iblk1
  rw [View.read_apply]
  show V c main_v26 _ = V c main_v26 _
  congr 1
  funext a
  apply Fin.ext
  match a with
  | ⟨0, _⟩ => show win1_1.index t 0 * 5000 + 1 * (x 0).val = (i 0).val; rw [e2, hi0]; omega
  | ⟨1, _⟩ => show win1_1.index t 1 * 1 + 1 * (x 1).val = (i 1).val; rw [e3, hi1]; omega

/-- Input window 2's block at point `t` is rows `5000·t … 5000·t + 4999` of its array. -/
theorem iblk1_2_apply (c : Dev nD) (t : Fin cfg1.N) (x : S5000x1.Idx) (i : S3300000x1.Idx)
    (hi0 : (i 0).val = t.val * 5000 + (x 0).val) (hi1 : (i 1).val = (x 1).val) :
    (iblk1 V c 2 t : Vec Ideal S5000x1 .f32) x = (V c main_v35 : S3300000x1.Idx → EReal) i := by
  obtain ⟨e0, e1, e2, e3, e4, e5, e6, e7, e8, e9⟩ := idx1 t
  unfold iblk1
  rw [View.read_apply]
  show V c main_v35 _ = V c main_v35 _
  congr 1
  funext a
  apply Fin.ext
  match a with
  | ⟨0, _⟩ => show win1_2.index t 0 * 5000 + 1 * (x 0).val = (i 0).val; rw [e4, hi0]; omega
  | ⟨1, _⟩ => show win1_2.index t 1 * 1 + 1 * (x 1).val = (i 1).val; rw [e5, hi1]; omega

/-- Input window 3's block at point `t` is rows `5000·t … 5000·t + 4999` of its array. -/
theorem iblk1_3_apply (c : Dev nD) (t : Fin cfg1.N) (x : S5000x1.Idx) (i : S3300000x1.Idx)
    (hi0 : (i 0).val = t.val * 5000 + (x 0).val) (hi1 : (i 1).val = (x 1).val) :
    (iblk1 V c 3 t : Vec Ideal S5000x1 .f32) x = (V c main_v34 : S3300000x1.Idx → EReal) i := by
  obtain ⟨e0, e1, e2, e3, e4, e5, e6, e7, e8, e9⟩ := idx1 t
  unfold iblk1
  rw [View.read_apply]
  show V c main_v34 _ = V c main_v34 _
  congr 1
  funext a
  apply Fin.ext
  match a with
  | ⟨0, _⟩ => show win1_3.index t 0 * 5000 + 1 * (x 0).val = (i 0).val; rw [e6, hi0]; omega
  | ⟨1, _⟩ => show win1_3.index t 1 * 1 + 1 * (x 1).val = (i 1).val; rw [e7, hi1]; omega

/-- Entry `y` of the block the body stores at point `t` is the scaled row's entry at row `5000·t + y₀`. -/
theorem point1 (c : Dev nD) (t : Fin cfg1.N) (y : S5000x64.Idx) (i : S3300000x64.Idx)
    (hi0 : (i 0).val = t.val * 5000 + (y 0).val) (hi1 : (i 1).val = (y 1).val) :
    k1_pay1 (F := Ideal) (iblk1 V c 1 t) (iblk1 V c 2 t) (iblk1 V c 3 t) (iblk1 V c 0 t) y
      = Gcn.scale (V c main_v43) (V c main_v26) (V c main_v35) (V c main_v34) i := by
  obtain ⟨p, q, rfl⟩ : ∃ (p : Fin 5000) (q : Fin 64), y = ix2 p q := ⟨y 0, y 1, eq_ix2 y⟩
  rw [pay1_apply]
  unfold Gcn.scale
  rw [iblk1_0_apply V c t (ix2 p q) i hi0 hi1,
    iblk1_1_apply V c t (ix2 p (0 : Fin 1)) (ix2 (i 0) (0 : Fin 1)) hi0 rfl,
    iblk1_2_apply V c t (ix2 p (0 : Fin 1)) (ix2 (i 0) (0 : Fin 1)) hi0 rfl,
    iblk1_3_apply V c t (ix2 p (0 : Fin 1)) (ix2 (i 0) (0 : Fin 1)) hi0 rfl]

/-- What point `t` writes back is block `t` of the layer's whole-array function of the arrays the region finds. -/
theorem flushed1 (c : Dev nD) (t : Fin cfg1.N) :
    (dat1 V c).flushed 4 t = ((cfg1.win 4).blk t).view.read (Elt Ideal) (Gcn.scale (V c main_v43) (V c main_v26) (V c main_v35) (V c main_v34)) := by
  show (cfg1.win 4).cut (grid1.coords t) ((dat1 V c).after 4 t) = _
  rw [after1_4]
  unfold out1_4
  rw [View.canon_unit_zero hz2_1]
  simp only [View.ld_unit_zero (S := S5000x64) hz2_1, View.ld_unit_zero (S := S5000x1) hz2_1]
  obtain ⟨e0, e1, e2, e3, e4, e5, e6, e7, e8, e9⟩ := idx1 t
  funext y
  rw [View.read_apply]
  refine point1 V c t y (((cfg1.win 4).blk t).view.emb y) ?_ ?_
  · show win1_4.index t 0 * 5000 + 1 * (y 0).val = t.val * 5000 + (y 0).val
    rw [e8]; omega
  · show win1_4.index t 1 * 64 + 1 * (y 1).val = (y 1).val
    rw [e9]; omega

/-- An index of the output array is in point `t`'s block iff each coordinate is in the block's range. -/
theorem mem_blk1 (t : Fin cfg1.N) (i : S3300000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v44).slice (win1_4.rect t)).set ↔ _
  rw [View.set_slice_whole, Rect.mem_set_unit]
  exact Iff.rfl

/-- The blocks tile the output array: row `r` lies in the block of point `r / 5000`. -/
theorem cover1 (i : S3300000x64.Idx) :
    ∃ t : Fin cfg1.N, (cfg1.win 4).flush t = true ∧ i ∈ ((cfg1.win 4).blk t).view.set := by
  have hi0 : (i 0).val < 3300000 := (i 0).isLt
  have hi1 : (i 1).val < 64 := (i 1).isLt
  have hN : grid1.N = 660 := N_1
  have ht : (i 0).val / 5000 < cfg1.N := by show (i 0).val / 5000 < grid1.N; rw [hN]; omega
  obtain ⟨e0, e1, e2, e3, e4, e5, e6, e7, e8, e9⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ 0 * 5000 ≤ (i 0).val ∧ (i 0).val < win1_4.index ⟨(i 0).val / 5000, ht⟩ 0 * 5000 + 5000
    rw [e8]
    show (i 0).val / 5000 * 5000 ≤ (i 0).val ∧ (i 0).val < (i 0).val / 5000 * 5000 + 5000
    omega
  | ⟨1, _⟩ =>
    show win1_4.index ⟨(i 0).val / 5000, ht⟩ 1 * 64 ≤ (i 1).val ∧ (i 1).val < win1_4.index ⟨(i 0).val / 5000, ht⟩ 1 * 64 + 64
    rw [e9]
    omega

/-- The output array after the region. -/
theorem final1 (c : Dev nD) : (dat1 V c).arrAt 4 cfg1.N = Gcn.scale (V c main_v43) (V c main_v26) (V c main_v35) (V c main_v34) :=
  (dat1 V c).arrAt_eq_of_cover 4 (Gcn.scale (V c main_v43) (V c main_v26) (V c main_v35) (V c main_v34)) (fun t _ => flushed1 V c t) (cover1)

end Cert.KernelIdeal.Hand

end
-- ==== Proof.Region2.lean ====
/-
  The first layer's bias and positive part as a whole array: entry (p, c) of the output is
  max (x (p, c) + bias c) 0, each block of 10000 rows at its own grid point.
-/
import proofs.«127246_j2499670966350_1_alg».proof.Proof.Gen.KernelIdeal.Frame
import proofs.«127246_j2499670966350_1_alg».proof.Proof.Pay
import proofs.«127246_j2499670966350_1_alg».proof.Proof.GcnSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2_2 : (![0, 0] : Fin 2 → Nat) = fun _ => 0 := funext fun a => by fin_cases a <;> rfl

/-- The index maps over the grid: a row-blocked window's block index is (t, 0), a whole window's (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Input window 0's block at point `t` is rows `10000·t … 10000·t + 9999` of its array. -/
theorem iblk2_0_apply (c : Dev nD) (t : Fin cfg2.N) (x : S10000x64.Idx) (i : S100000x64.Idx)
    (hi0 : (i 0).val = t.val * 10000 + (x 0).val) (hi1 : (i 1).val = (x 1).val) :
    (iblk2 V c 0 t : Vec Ideal S10000x64 .f32) x = (V c main_v47 : S100000x64.Idx → EReal) i := by
  obtain ⟨e0, e1, e2, e3, e4, e5⟩ := idx2 t
  unfold iblk2
  rw [View.read_apply]
  show V c main_v47 _ = V c main_v47 _
  congr 1
  funext a
  apply Fin.ext
  match a with
  | ⟨0, _⟩ => show win2_0.index t 0 * 10000 + 1 * (x 0).val = (i 0).val; rw [e0, hi0]; omega
  | ⟨1, _⟩ => show win2_0.index t 1 * 64 + 1 * (x 1).val = (i 1).val; rw [e1, hi1]; omega

/-- Input window 1's block at point `t` is the whole of its array. -/
theorem iblk2_1_apply (c : Dev nD) (t : Fin cfg2.N) (x : S1x64.Idx) (i : S1x64.Idx)
    (hi0 : (i 0).val = (x 0).val) (hi1 : (i 1).val = (x 1).val) :
    (iblk2 V c 1 t : Vec Ideal S1x64 .f32) x = (V c main_v48 : S1x64.Idx → EReal) i := by
  obtain ⟨e0, e1, e2, e3, e4, e5⟩ := idx2 t
  unfold iblk2
  rw [View.read_apply]
  show V c main_v48 _ = V c main_v48 _
  congr 1
  funext a
  apply Fin.ext
  match a with
  | ⟨0, _⟩ => show win2_1.index t 0 * 1 + 1 * (x 0).val = (i 0).val; rw [e2, hi0]; omega
  | ⟨1, _⟩ => show win2_1.index t 1 * 64 + 1 * (x 1).val = (i 1).val; rw [e3, hi1]; omega

/-- Entry `y` of the block the body stores at point `t` is the layer's entry at row `10000·t + y₀`. -/
theorem point2 (c : Dev nD) (t : Fin cfg2.N) (y : S10000x64.Idx) (i : S100000x64.Idx)
    (hi0 : (i 0).val = t.val * 10000 + (y 0).val) (hi1 : (i 1).val = (y 1).val) :
    k2_pay1 (F := Ideal) (iblk2 V c 0 t) (iblk2 V c 1 t) y = Gcn.biasRelu (V c main_v47) (V c main_v48) i := by
  obtain ⟨p, q, rfl⟩ : ∃ (p : Fin 10000) (q : Fin 64), y = ix2 p q := ⟨y 0, y 1, eq_ix2 y⟩
  rw [pay2_apply]
  unfold Gcn.biasRelu
  rw [iblk2_0_apply V c t (ix2 p q) i hi0 hi1,
    iblk2_1_apply V c t (ix2 (0 : Fin 1) q) (ix2 (0 : Fin 1) (i 1)) rfl hi1]

/-- What point `t` writes back is block `t` of the layer's whole-array function of the arrays the region finds. -/
theorem flushed2 (c : Dev nD) (t : Fin cfg2.N) :
    (dat2 V c).flushed 2 t = ((cfg2.win 2).blk t).view.read (Elt Ideal) (Gcn.biasRelu (V c main_v47) (V c main_v48)) := by
  show (cfg2.win 2).cut (grid2.coords t) ((dat2 V c).after 2 t) = _
  rw [after2_2]
  unfold out2_2
  rw [View.canon_unit_zero hz2_2]
  simp only [View.ld_unit_zero (S := S10000x64) hz2_2, View.ld_unit_zero (S := S1x64) hz2_2]
  obtain ⟨e0, e1, e2, e3, e4, e5⟩ := idx2 t
  funext y
  rw [View.read_apply]
  refine point2 V c t y (((cfg2.win 2).blk t).view.emb y) ?_ ?_
  · show win2_2.index t 0 * 10000 + 1 * (y 0).val = t.val * 10000 + (y 0).val
    rw [e4]; omega
  · show win2_2.index t 1 * 64 + 1 * (y 1).val = (y 1).val
    rw [e5]; omega

/-- An index of the output array is in point `t`'s block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v49).slice (win2_2.rect t)).set ↔ _
  rw [View.set_slice_whole, Rect.mem_set_unit]
  exact Iff.rfl

/-- The blocks tile the output array: row `r` lies in the block of point `r / 10000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < cfg2.N := by show (i 0).val / 10000 < grid2.N; rw [hN]; omega
  obtain ⟨e0, e1, e2, e3, e4, e5⟩ := idx2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ 0 * 10000 ≤ (i 0).val ∧ (i 0).val < win2_2.index ⟨(i 0).val / 10000, ht⟩ 0 * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ 1 * 64 ≤ (i 1).val ∧ (i 1).val < win2_2.index ⟨(i 0).val / 10000, ht⟩ 1 * 64 + 64
    rw [e5]
    omega

/-- The output array after the region. -/
theorem final2 (c : Dev nD) : (dat2 V c).arrAt 2 cfg2.N = Gcn.biasRelu (V c main_v47) (V c main_v48) :=
  (dat2 V c).arrAt_eq_of_cover 2 (Gcn.biasRelu (V c main_v47) (V c main_v48)) (fun t _ => flushed2 V c t) (cover2)

end Cert.KernelIdeal.Hand

end
-- ==== Proof.Region3.lean ====
/-
  The second dense layer as a whole array: the region's output is the hidden features times the transposed weights,
  each row block computed at its own grid point from the matching rows of the features and the whole weight array.
-/
import proofs.«127246_j2499670966350_1_alg».proof.Proof.Gen.KernelIdeal.Frame
import proofs.«127246_j2499670966350_1_alg».proof.Proof.Pay
import proofs.«127246_j2499670966350_1_alg».proof.Proof.GcnSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2_3 : (![0, 0] : Fin 2 → Nat) = fun _ => 0 := funext fun a => by fin_cases a <;> rfl

/-- The index maps over the grid: a row-blocked window's block index is (t, 0), a whole window's (0, 0). -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Input window 0's block at point `t` is rows `2000·t … 2000·t + 1999` of its array. -/
theorem iblk3_0_apply (c : Dev nD) (t : Fin cfg3.N) (x : S2000x64.Idx) (i : S100000x64.Idx)
    (hi0 : (i 0).val = t.val * 2000 + (x 0).val) (hi1 : (i 1).val = (x 1).val) :
    (iblk3 V c 0 t : Vec Ideal S2000x64 .f32) x = (V c main_v49 : S100000x64.Idx → EReal) i := by
  obtain ⟨e0, e1, e2, e3, e4, e5⟩ := idx3 t
  unfold iblk3
  rw [View.read_apply]
  show V c main_v49 _ = V c main_v49 _
  congr 1
  funext a
  apply Fin.ext
  match a with
  | ⟨0, _⟩ => show win3_0.index t 0 * 2000 + 1 * (x 0).val = (i 0).val; rw [e0, hi0]; omega
  | ⟨1, _⟩ => show win3_0.index t 1 * 64 + 1 * (x 1).val = (i 1).val; rw [e1, hi1]; omega

/-- Input window 1's block at point `t` is the whole of its array. -/
theorem iblk3_1_apply (c : Dev nD) (t : Fin cfg3.N) (x : S16x64.Idx) (i : S16x64.Idx)
    (hi0 : (i 0).val = (x 0).val) (hi1 : (i 1).val = (x 1).val) :
    (iblk3 V c 1 t : Vec Ideal S16x64 .f32) x = (V c main_arg5 : S16x64.Idx → EReal) i := by
  obtain ⟨e0, e1, e2, e3, e4, e5⟩ := idx3 t
  unfold iblk3
  rw [View.read_apply]
  show V c main_arg5 _ = V c main_arg5 _
  congr 1
  funext a
  apply Fin.ext
  match a with
  | ⟨0, _⟩ => show win3_1.index t 0 * 16 + 1 * (x 0).val = (i 0).val; rw [e2, hi0]; omega
  | ⟨1, _⟩ => show win3_1.index t 1 * 64 + 1 * (x 1).val = (i 1).val; rw [e3, hi1]; omega

/-- Entry `y` of the block the body stores at point `t` is the dense layer's entry at row `2000·t + y₀`. -/
theorem point3 (c : Dev nD) (t : Fin cfg3.N) (y : S2000x16.Idx) (i : S100000x16.Idx)
    (hi0 : (i 0).val = t.val * 2000 + (y 0).val) (hi1 : (i 1).val = (y 1).val) :
    k3_pay1 (F := Ideal) (iblk3 V c 0 t) (iblk3 V c 1 t) y = Gcn.lin (V c main_v49) (V c main_arg5) i := by
  obtain ⟨p, q, rfl⟩ : ∃ (p : Fin 2000) (q : Fin 16), y = ix2 p q := ⟨y 0, y 1, eq_ix2 y⟩
  rw [pay3_apply]
  unfold Gcn.lin
  refine Finset.sum_congr rfl fun j _ => ?_
  rw [iblk3_0_apply V c t (ix2 p j) (ix2 (i 0) j) hi0 rfl, iblk3_1_apply V c t (ix2 q j) (ix2 (i 1) j) hi1 rfl]

/-- What point `t` writes back is block `t` of the layer's whole-array function of the arrays the region finds. -/
theorem flushed3 (c : Dev nD) (t : Fin cfg3.N) :
    (dat3 V c).flushed 2 t = ((cfg3.win 2).blk t).view.read (Elt Ideal) (Gcn.lin (V c main_v49) (V c main_arg5)) := by
  show (cfg3.win 2).cut (grid3.coords t) ((dat3 V c).after 2 t) = _
  rw [after3_2]
  unfold out3_2
  rw [View.canon_unit_zero hz2_3]
  simp only [View.ld_unit_zero (S := S2000x64) hz2_3, View.ld_unit_zero (S := S16x64) hz2_3]
  obtain ⟨e0, e1, e2, e3, e4, e5⟩ := idx3 t
  funext y
  rw [View.read_apply]
  refine point3 V c t y (((cfg3.win 2).blk t).view.emb y) ?_ ?_
  · show win3_2.index t 0 * 2000 + 1 * (y 0).val = t.val * 2000 + (y 0).val
    rw [e4]; omega
  · show win3_2.index t 1 * 16 + 1 * (y 1).val = (y 1).val
    rw [e5]; omega

/-- An index of the output array is in point `t`'s block iff each coordinate is in the block's range. -/
theorem mem_blk3 (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v50).slice (win3_2.rect t)).set ↔ _
  rw [View.set_slice_whole, Rect.mem_set_unit]
  exact Iff.rfl

/-- The blocks tile the output array: row `r` lies in the block of point `r / 2000`. -/
theorem cover3 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : grid3.N = 50 := N_3
  have ht : (i 0).val / 2000 < cfg3.N := by show (i 0).val / 2000 < grid3.N; rw [hN]; omega
  obtain ⟨e0, e1, e2, e3, e4, e5⟩ := idx3 ⟨(i 0).val / 2000, ht⟩
  refine ⟨⟨(i 0).val / 2000, ht⟩, flush3_2 _, ?_⟩
  rw [mem_blk3]
  intro a
  match a with
  | ⟨0, _⟩ =>
    show win3_2.index ⟨(i 0).val / 2000, ht⟩ 0 * 2000 ≤ (i 0).val ∧ (i 0).val < win3_2.index ⟨(i 0).val / 2000, ht⟩ 0 * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ 1 * 16 ≤ (i 1).val ∧ (i 1).val < win3_2.index ⟨(i 0).val / 2000, ht⟩ 1 * 16 + 16
    rw [e5]
    omega

/-- The output array after the region. -/
theorem final3 (c : Dev nD) : (dat3 V c).arrAt 2 cfg3.N = Gcn.lin (V c main_v49) (V c main_arg5) :=
  (dat3 V c).arrAt_eq_of_cover 2 (Gcn.lin (V c main_v49) (V c main_arg5)) (fun t _ => flushed3 V c t) (cover3)

end Cert.KernelIdeal.Hand

end
-- ==== Proof.Region4.lean ====
/-
  The second layer's messages as a whole array: every gathered row is multiplied by the product of its edge's three
  factors (the source's inverse root degree times the edge weight, times the target's inverse root degree), each
  block of 5000 edges at its own grid point.
-/
import proofs.«127246_j2499670966350_1_alg».proof.Proof.Gen.KernelIdeal.Frame
import proofs.«127246_j2499670966350_1_alg».proof.Proof.Pay
import proofs.«127246_j2499670966350_1_alg».proof.Proof.GcnSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2_4 : (![0, 0] : Fin 2 → Nat) = fun _ => 0 := funext fun a => by fin_cases a <;> rfl

/-- The index maps over the grid: a row-blocked window's block index is (t, 0), a whole window's (0, 0). -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0 :=
  (by decide +kernel : ∀ t : Fin grid4.N, _)

/-- Input window 0's block at point `t` is rows `5000·t … 5000·t + 4999` of its array. -/
theorem iblk4_0_apply (c : Dev nD) (t : Fin cfg4.N) (x : S5000x16.Idx) (i : S3300000x16.Idx)
    (hi0 : (i 0).val = t.val * 5000 + (x 0).val) (hi1 : (i 1).val = (x 1).val) :
    (iblk4 V c 0 t : Vec Ideal S5000x16 .f32) x = (V c main_v57 : S3300000x16.Idx → EReal) i := by
  obtain ⟨e0, e1, e2, e3, e4, e5, e6, e7, e8, e9⟩ := idx4 t
  unfold iblk4
  rw [View.read_apply]
  show V c main_v57 _ = V c main_v57 _
  congr 1
  funext a
  apply Fin.ext
  match a with
  | ⟨0, _⟩ => show win4_0.index t 0 * 5000 + 1 * (x 0).val = (i 0).val; rw [e0, hi0]; omega
  | ⟨1, _⟩ => show win4_0.index t 1 * 16 + 1 * (x 1).val = (i 1).val; rw [e1, hi1]; omega

/-- Input window 1's block at point `t` is rows `5000·t … 5000·t + 4999` of its array. -/
theorem iblk4_1_apply (c : Dev nD) (t : Fin cfg4.N) (x : S5000x1.Idx) (i : S3300000x1.Idx)
    (hi0 : (i 0).val = t.val * 5000 + (x 0).val) (hi1 : (i 1).val = (x 1).val) :
    (iblk4 V c 1 t : Vec Ideal S5000x1 .f32) x = (V c main_v26 : S3300000x1.Idx → EReal) i := by
  obtain ⟨e0, e1, e2, e3, e4, e5, e6, e7, e8, e9⟩ := idx4 t
  unfold iblk4
  rw [View.read_apply]
  show V c main_v26 _ = V c main_v26 _
  congr 1
  funext a
  apply Fin.ext
  match a with
  | ⟨0, _⟩ => show win4_1.index t 0 * 5000 + 1 * (x 0).val = (i 0).val; rw [e2, hi0]; omega
  | ⟨1, _⟩ => show win4_1.index t 1 * 1 + 1 * (x 1).val = (i 1).val; rw [e3, hi1]; omega

/-- Input window 2's block at point `t` is rows `5000·t … 5000·t + 4999` of its array. -/
theorem iblk4_2_apply (c : Dev nD) (t : Fin cfg4.N) (x : S5000x1.Idx) (i : S3300000x1.Idx)
    (hi0 : (i 0).val = t.val * 5000 + (x 0).val) (hi1 : (i 1).val = (x 1).val) :
    (iblk4 V c 2 t : Vec Ideal S5000x1 .f32) x = (V c main_v35 : S3300000x1.Idx → EReal) i := by
  obtain ⟨e0, e1, e2, e3, e4, e5, e6, e7, e8, e9⟩ := idx4 t
  unfold iblk4
  rw [View.read_apply]
  show V c main_v35 _ = V c main_v35 _
  congr 1
  funext a
  apply Fin.ext
  match a with
  | ⟨0, _⟩ => show win4_2.index t 0 * 5000 + 1 * (x 0).val = (i 0).val; rw [e4, hi0]; omega
  | ⟨1, _⟩ => show win4_2.index t 1 * 1 + 1 * (x 1).val = (i 1).val; rw [e5, hi1]; omega

/-- Input window 3's block at point `t` is rows `5000·t … 5000·t + 4999` of its array. -/
theorem iblk4_3_apply (c : Dev nD) (t : Fin cfg4.N) (x : S5000x1.Idx) (i : S3300000x1.Idx)
    (hi0 : (i 0).val = t.val * 5000 + (x 0).val) (hi1 : (i 1).val = (x 1).val) :
    (iblk4 V c 3 t : Vec Ideal S5000x1 .f32) x = (V c main_v34 : S3300000x1.Idx → EReal) i := by
  obtain ⟨e0, e1, e2, e3, e4, e5, e6, e7, e8, e9⟩ := idx4 t
  unfold iblk4
  rw [View.read_apply]
  show V c main_v34 _ = V c main_v34 _
  congr 1
  funext a
  apply Fin.ext
  match a with
  | ⟨0, _⟩ => show win4_3.index t 0 * 5000 + 1 * (x 0).val = (i 0).val; rw [e6, hi0]; omega
  | ⟨1, _⟩ => show win4_3.index t 1 * 1 + 1 * (x 1).val = (i 1).val; rw [e7, hi1]; omega

/-- Entry `y` of the block the body stores at point `t` is the scaled row's entry at row `5000·t + y₀`. -/
theorem point4 (c : Dev nD) (t : Fin cfg4.N) (y : S5000x16.Idx) (i : S3300000x16.Idx)
    (hi0 : (i 0).val = t.val * 5000 + (y 0).val) (hi1 : (i 1).val = (y 1).val) :
    k4_pay1 (F := Ideal) (iblk4 V c 1 t) (iblk4 V c 2 t) (iblk4 V c 3 t) (iblk4 V c 0 t) y
      = Gcn.scale (V c main_v57) (V c main_v26) (V c main_v35) (V c main_v34) i := by
  obtain ⟨p, q, rfl⟩ : ∃ (p : Fin 5000) (q : Fin 16), y = ix2 p q := ⟨y 0, y 1, eq_ix2 y⟩
  rw [pay4_apply]
  unfold Gcn.scale
  rw [iblk4_0_apply V c t (ix2 p q) i hi0 hi1,
    iblk4_1_apply V c t (ix2 p (0 : Fin 1)) (ix2 (i 0) (0 : Fin 1)) hi0 rfl,
    iblk4_2_apply V c t (ix2 p (0 : Fin 1)) (ix2 (i 0) (0 : Fin 1)) hi0 rfl,
    iblk4_3_apply V c t (ix2 p (0 : Fin 1)) (ix2 (i 0) (0 : Fin 1)) hi0 rfl]

/-- What point `t` writes back is block `t` of the layer's whole-array function of the arrays the region finds. -/
theorem flushed4 (c : Dev nD) (t : Fin cfg4.N) :
    (dat4 V c).flushed 4 t = ((cfg4.win 4).blk t).view.read (Elt Ideal) (Gcn.scale (V c main_v57) (V c main_v26) (V c main_v35) (V c main_v34)) := by
  show (cfg4.win 4).cut (grid4.coords t) ((dat4 V c).after 4 t) = _
  rw [after4_4]
  unfold out4_4
  rw [View.canon_unit_zero hz2_4]
  simp only [View.ld_unit_zero (S := S5000x16) hz2_4, View.ld_unit_zero (S := S5000x1) hz2_4]
  obtain ⟨e0, e1, e2, e3, e4, e5, e6, e7, e8, e9⟩ := idx4 t
  funext y
  rw [View.read_apply]
  refine point4 V c t y (((cfg4.win 4).blk t).view.emb y) ?_ ?_
  · show win4_4.index t 0 * 5000 + 1 * (y 0).val = t.val * 5000 + (y 0).val
    rw [e8]; omega
  · show win4_4.index t 1 * 16 + 1 * (y 1).val = (y 1).val
    rw [e9]; omega

/-- An index of the output array is in point `t`'s block iff each coordinate is in the block's range. -/
theorem mem_blk4 (t : Fin cfg4.N) (i : S3300000x16.Idx) :
    i ∈ ((cfg4.win 4).blk t).view.set ↔ ∀ a : Fin 2, win4_4.index t a * S5000x16.size a ≤ (i a).val ∧ (i a).val < win4_4.index t a * S5000x16.size a + S5000x16.size a := by
  show i ∈ ((View.whole main_v58).slice (win4_4.rect t)).set ↔ _
  rw [View.set_slice_whole, Rect.mem_set_unit]
  exact Iff.rfl

/-- The blocks tile the output array: row `r` lies in the block of point `r / 5000`. -/
theorem cover4 (i : S3300000x16.Idx) :
    ∃ t : Fin cfg4.N, (cfg4.win 4).flush t = true ∧ i ∈ ((cfg4.win 4).blk t).view.set := by
  have hi0 : (i 0).val < 3300000 := (i 0).isLt
  have hi1 : (i 1).val < 16 := (i 1).isLt
  have hN : grid4.N = 660 := N_4
  have ht : (i 0).val / 5000 < cfg4.N := by show (i 0).val / 5000 < grid4.N; rw [hN]; omega
  obtain ⟨e0, e1, e2, e3, e4, e5, e6, e7, e8, e9⟩ := idx4 ⟨(i 0).val / 5000, ht⟩
  refine ⟨⟨(i 0).val / 5000, ht⟩, flush4_4 _, ?_⟩
  rw [mem_blk4]
  intro a
  match a with
  | ⟨0, _⟩ =>
    show win4_4.index ⟨(i 0).val / 5000, ht⟩ 0 * 5000 ≤ (i 0).val ∧ (i 0).val < win4_4.index ⟨(i 0).val / 5000, ht⟩ 0 * 5000 + 5000
    rw [e8]
    show (i 0).val / 5000 * 5000 ≤ (i 0).val ∧ (i 0).val < (i 0).val / 5000 * 5000 + 5000
    omega
  | ⟨1, _⟩ =>
    show win4_4.index ⟨(i 0).val / 5000, ht⟩ 1 * 16 ≤ (i 1).val ∧ (i 1).val < win4_4.index ⟨(i 0).val / 5000, ht⟩ 1 * 16 + 16
    rw [e9]
    omega

/-- The output array after the region. -/
theorem final4 (c : Dev nD) : (dat4 V c).arrAt 4 cfg4.N = Gcn.scale (V c main_v57) (V c main_v26) (V c main_v35) (V c main_v34) :=
  (dat4 V c).arrAt_eq_of_cover 4 (Gcn.scale (V c main_v57) (V c main_v26) (V c main_v35) (V c main_v34)) (fun t _ => flushed4 V c t) (cover4)

end Cert.KernelIdeal.Hand

end
-- ==== Proof.Region5.lean ====
/-
  The second layer's bias and row-wise log-softmax as a whole array: with z the biased row p and m its largest
  entry, entry (p, c) of the output is (z c − m) − log (Σ exp (z k − m)), each block of 10000 rows at its own grid point.
-/
import proofs.«127246_j2499670966350_1_alg».proof.Proof.Gen.KernelIdeal.Frame
import proofs.«127246_j2499670966350_1_alg».proof.Proof.Pay
import proofs.«127246_j2499670966350_1_alg».proof.Proof.GcnSpec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz2_5 : (![0, 0] : Fin 2 → Nat) = fun _ => 0 := funext fun a => by fin_cases a <;> rfl

/-- The index maps over the grid: a row-blocked window's block index is (t, 0), a whole window's (0, 0). -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Input window 0's block at point `t` is rows `10000·t … 10000·t + 9999` of its array. -/
theorem iblk5_0_apply (c : Dev nD) (t : Fin cfg5.N) (x : S10000x16.Idx) (i : S100000x16.Idx)
    (hi0 : (i 0).val = t.val * 10000 + (x 0).val) (hi1 : (i 1).val = (x 1).val) :
    (iblk5 V c 0 t : Vec Ideal S10000x16 .f32) x = (V c main_v61 : S100000x16.Idx → EReal) i := by
  obtain ⟨e0, e1, e2, e3, e4, e5⟩ := idx5 t
  unfold iblk5
  rw [View.read_apply]
  show V c main_v61 _ = V c main_v61 _
  congr 1
  funext a
  apply Fin.ext
  match a with
  | ⟨0, _⟩ => show win5_0.index t 0 * 10000 + 1 * (x 0).val = (i 0).val; rw [e0, hi0]; omega
  | ⟨1, _⟩ => show win5_0.index t 1 * 16 + 1 * (x 1).val = (i 1).val; rw [e1, hi1]; omega

/-- Input window 1's block at point `t` is the whole of its array. -/
theorem iblk5_1_apply (c : Dev nD) (t : Fin cfg5.N) (x : S1x16.Idx) (i : S1x16.Idx)
    (hi0 : (i 0).val = (x 0).val) (hi1 : (i 1).val = (x 1).val) :
    (iblk5 V c 1 t : Vec Ideal S1x16 .f32) x = (V c main_v62 : S1x16.Idx → EReal) i := by
  obtain ⟨e0, e1, e2, e3, e4, e5⟩ := idx5 t
  unfold iblk5
  rw [View.read_apply]
  show V c main_v62 _ = V c main_v62 _
  congr 1
  funext a
  apply Fin.ext
  match a with
  | ⟨0, _⟩ => show win5_1.index t 0 * 1 + 1 * (x 0).val = (i 0).val; rw [e2, hi0]; omega
  | ⟨1, _⟩ => show win5_1.index t 1 * 16 + 1 * (x 1).val = (i 1).val; rw [e3, hi1]; omega

/-- A biased score of the loaded block is the biased score of the matching row of the arrays. -/
theorem biased5 (c : Dev nD) (t : Fin cfg5.N) (p : Fin 10000) (r : Fin 100000) (hr : r.val = t.val * 10000 + p.val) (k : Fin 16) :
    Gcn.biased (iblk5 V c 0 t) (iblk5 V c 1 t) p k = Gcn.biased (V c main_v61) (V c main_v62) r k := by
  unfold Gcn.biased
  rw [iblk5_0_apply V c t (ix2 p k) (ix2 r k) hr rfl, iblk5_1_apply V c t (ix2 (0 : Fin 1) k) (ix2 (0 : Fin 1) k) rfl rfl]

/-- Entry `y` of the block the body stores at point `t` is the layer's entry at row `10000·t + y₀`. -/
theorem point5 (c : Dev nD) (t : Fin cfg5.N) (y : S10000x16.Idx) (i : S100000x16.Idx)
    (hi0 : (i 0).val = t.val * 10000 + (y 0).val) (hi1 : (i 1).val = (y 1).val) :
    k5_pay1 (F := Ideal) (iblk5 V c 0 t) (iblk5 V c 1 t) y = Gcn.biasLogSoftmax (V c main_v61) (V c main_v62) i := by
  obtain ⟨p, q, rfl⟩ : ∃ (p : Fin 10000) (q : Fin 16), y = ix2 p q := ⟨y 0, y 1, eq_ix2 y⟩
  rw [pay5_apply]
  unfold Gcn.biasLogSoftmax
  have hq : (i 1) = q := Fin.ext hi1
  have htop : Gcn.rowTop (iblk5 V c 0 t) (iblk5 V c 1 t) p = Gcn.rowTop (V c main_v61) (V c main_v62) (i 0) := by
    unfold Gcn.rowTop
    exact congrArg (fun f => (Finset.univ : Finset (Fin 16)).fold max ⊥ f) (funext fun k => biased5 V c t p (i 0) hi0 k)
  rw [htop, biased5 V c t p (i 0) hi0 q, hq]
  refine congrArg (fun s => (Gcn.biased (V c main_v61) (V c main_v62) (i 0) q - Gcn.rowTop (V c main_v61) (V c main_v62) (i 0)) - Ideal.log s)
    (Finset.sum_congr rfl fun k _ => ?_)
  rw [biased5 V c t p (i 0) hi0 k]

/-- What point `t` writes back is block `t` of the layer's whole-array function of the arrays the region finds. -/
theorem flushed5 (c : Dev nD) (t : Fin cfg5.N) :
    (dat5 V c).flushed 2 t = ((cfg5.win 2).blk t).view.read (Elt Ideal) (Gcn.biasLogSoftmax (V c main_v61) (V c main_v62)) := by
  show (cfg5.win 2).cut (grid5.coords t) ((dat5 V c).after 2 t) = _
  rw [after5_2]
  unfold out5_2
  rw [View.canon_unit_zero hz2_5]
  simp only [View.ld_unit_zero (S := S10000x16) hz2_5, View.ld_unit_zero (S := S1x16) hz2_5]
  obtain ⟨e0, e1, e2, e3, e4, e5⟩ := idx5 t
  funext y
  rw [View.read_apply]
  refine point5 V c t y (((cfg5.win 2).blk t).view.emb y) ?_ ?_
  · show win5_2.index t 0 * 10000 + 1 * (y 0).val = t.val * 10000 + (y 0).val
    rw [e4]; omega
  · show win5_2.index t 1 * 16 + 1 * (y 1).val = (y 1).val
    rw [e5]; omega

/-- An index of the output array is in point `t`'s block iff each coordinate is in the block's range. -/
theorem mem_blk5 (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v63).slice (win5_2.rect t)).set ↔ _
  rw [View.set_slice_whole, Rect.mem_set_unit]
  exact Iff.rfl

/-- The blocks tile the output array: row `r` lies in the block of point `r / 10000`. -/
theorem cover5 (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  have hN : grid5.N = 10 := N_5
  have ht : (i 0).val / 10000 < cfg5.N := by show (i 0).val / 10000 < grid5.N; rw [hN]; omega
  obtain ⟨e0, e1, e2, e3, e4, e5⟩ := idx5 ⟨(i 0).val / 10000, ht⟩
  refine ⟨⟨(i 0).val / 10000, ht⟩, flush5_2 _, ?_⟩
  rw [mem_blk5]
  intro a
  match a with
  | ⟨0, _⟩ =>
    show win5_2.index ⟨(i 0).val / 10000, ht⟩ 0 * 10000 ≤ (i 0).val ∧ (i 0).val < win5_2.index ⟨(i 0).val / 10000, ht⟩ 0 * 10000 + 10000
    rw [e4]
    show (i 0).val / 10000 * 10000 ≤ (i 0).val ∧ (i 0).val < (i 0).val / 10000 * 10000 + 10000
    omega
  | ⟨1, _⟩ =>
    show win5_2.index ⟨(i 0).val / 10000, ht⟩ 1 * 16 ≤ (i 1).val ∧ (i 1).val < win5_2.index ⟨(i 0).val / 10000, ht⟩ 1 * 16 + 16
    rw [e5]
    omega

/-- The output array after the region. -/
theorem final5 (c : Dev nD) : (dat5 V c).arrAt 2 cfg5.N = Gcn.biasLogSoftmax (V c main_v61) (V c main_v62) :=
  (dat5 V c).arrAt_eq_of_cover 2 (Gcn.biasLogSoftmax (V c main_v61) (V c main_v62)) (fun t _ => flushed5 V c t) (cover5)

end Cert.KernelIdeal.Hand

end
-- ==== Proof.RegionFinals.lean ====
/-
  What each of the six pipelined regions leaves in its output array, as one whole-array function of the arrays it
  finds on entry (the dense layers, the per-edge scalings, the bias with the positive part, the bias with the row-wise
  log-softmax): the six region modules, gathered.
-/
import proofs.«127246_j2499670966350_1_alg».proof.Proof.Region0
import proofs.«127246_j2499670966350_1_alg».proof.Proof.Region1
import proofs.«127246_j2499670966350_1_alg».proof.Proof.Region2
import proofs.«127246_j2499670966350_1_alg».proof.Proof.Region3
import proofs.«127246_j2499670966350_1_alg».proof.Proof.Region4
import proofs.«127246_j2499670966350_1_alg».proof.Proof.Region5
-- ==== Proof.Bridge.lean ====
/-
  The network's layers as the reference computes them: each whole-array layer function of GcnSpec, applied to the
  reference's own stages, is the reference's next stage, entry by entry.
-/
import proofs.«127246_j2499670966350_1_alg».proof.Proof.ReadP
import proofs.«127246_j2499670966350_1_alg».proof.Proof.GcnSpec
import proofs.«127246_j2499670966350_1_alg».proof.Proof.LibKeepdims
import proofs.«127246_j2499670966350_1_alg».proof.Proof.LibPlainDot
import Idealize.ShloMosaic.Lib.ValueLayout

noncomputable section

namespace Cert.Bridge

open Cert.ReferenceIdeal Cert.ReferenceIdeal.ReadP Idealize.ShloMosaic Idealize.ShloMosaic.ValueIdx

abbrev A0 := (⟨S100000x512, .f32⟩ : BufTy).Contents (Elt Ideal)
abbrev A1 := (⟨S2x3200000, .i32⟩ : BufTy).Contents (Elt Ideal)
abbrev A2 := (⟨S3200000, .f32⟩ : BufTy).Contents (Elt Ideal)
abbrev A3 := (⟨S64x512, .f32⟩ : BufTy).Contents (Elt Ideal)
abbrev A4 := (⟨S64, .f32⟩ : BufTy).Contents (Elt Ideal)
abbrev A5 := (⟨S16x64, .f32⟩ : BufTy).Contents (Elt Ideal)
abbrev A6 := (⟨S16, .f32⟩ : BufTy).Contents (Elt Ideal)

/-- A vector kept as a one-lane column reads, at `(r, 0)`, the vector at `r`. -/
private theorem col_apply {α : Type} {a : ℕ} (ha : a ≠ 1) (v : (⟨1, ![a]⟩ : Shape).Idx → α)
    (hb : (⟨1, ![a]⟩ : Shape).BroadcastsInDim ⟨2, ![a, 1]⟩ ![0]) (r : Fin a) :
    broadcastInDim ⟨2, ![a, 1]⟩ ![0] hb v (ix2 r (0 : Fin 1)) = v (ix1 r) :=
  broadcastInDim_apply _ hb v (ix2 r (0 : Fin 1)) (ix1 r) (fun ax => match ax with
    | ⟨0, _⟩ => by show r.val = if a = 1 then 0 else r.val; rw [if_neg ha])

/-- The first dense layer is the reference's product with the transposed weights. -/
theorem lin1 (x0 : A0) (x3 : A3) : Gcn.lin x0 x3 = val_main_v10 (F := Ideal) x0 x3 := by
  funext i
  rw [val_main_v10_apply]
  unfold Gcn.lin
  refine Finset.sum_congr rfl fun k _ => ?_
  rw [val_main_v9_apply]
  have e1 : lidx_main_v10 i k = ix2 (i 0) k := funext fun a => by
    match a with
    | ⟨0, _⟩ => rfl
    | ⟨1, _⟩ => rfl
  have e2 : idx_main_v9 (ridx_main_v10 i k) = ix2 (i 1) k := funext fun a => by
    match a with
    | ⟨0, _⟩ => rfl
    | ⟨1, _⟩ => rfl
  rw [e1, e2]
  rfl

/-- The first layer's messages: the gathered rows scaled by the three per-edge factors, each kept as a column. -/
theorem scale1 (x0 : A0) (x1 : A1) (x2 : A2) (x3 : A3)
    (hb : (⟨1, ![3300000]⟩ : Shape).BroadcastsInDim ⟨2, ![3300000, 1]⟩ ![0]) :
    Gcn.scale (val_main_v43 (F := Ideal) x0 x1 x3)
      (broadcastInDim ⟨2, ![3300000, 1]⟩ ![0] hb (val_main_v27 (F := Ideal) x1 x2))
      (broadcastInDim ⟨2, ![3300000, 1]⟩ ![0] hb (val_main_v8 (F := Ideal) x2))
      (broadcastInDim ⟨2, ![3300000, 1]⟩ ![0] hb (val_main_v35 (F := Ideal) x1 x2))
      = val_main_v46 (F := Ideal) x0 x1 x2 x3 := by
  funext i
  rw [val_main_v46_apply, val_main_v45_apply, val_main_v44_apply, val_main_v36_apply, val_main_v28_apply]
  unfold Gcn.scale
  rw [col_apply (by decide) _ hb (i 0), col_apply (by decide) _ hb (i 0), col_apply (by decide) _ hb (i 0)]
  have e : idx_main_v44 (idx_main_v45 i) = ix1 (i 0) := funext fun ax => by
    match ax with
    | ⟨0, _⟩ => rfl
  rw [e]
  rfl

/-- The first layer's bias and positive part, the bias given as a one-row array. -/
theorem relu1 (x0 : A0) (x1 : A1) (x2 : A2) (x3 : A3) (x4 : A4)
    (hc : (⟨1, ![64]⟩ : Shape).ShapeCasts ⟨2, ![1, 64]⟩) :
    Gcn.biasRelu (val_main_v49 (F := Ideal) x0 x1 x2 x3) (shapeCast ⟨2, ![1, 64]⟩ x4 hc)
      = val_main_v53 (F := Ideal) x0 x1 x2 x3 x4 := by
  funext i
  rw [val_main_v53_apply, val_main_v52_apply, val_main_call2_v0_apply, val_main_call2_cst_apply, val_main_v51_apply,
    val_main_v50_apply]
  unfold Gcn.biasRelu
  rw [shapeCast_a_1a_apply x4 hc (0 : Fin 1) (i 1)]
  have e : idx_main_v50 (idx_main_v51 i) = ix1 (i 1) := funext fun ax => by
    match ax with
    | ⟨0, _⟩ => rfl
  rw [e]
  rfl

/-- The second dense layer. -/
theorem lin2 (x0 : A0) (x1 : A1) (x2 : A2) (x3 : A3) (x4 : A4) (x5 : A5) :
    Gcn.lin (val_main_v53 (F := Ideal) x0 x1 x2 x3 x4) x5 = val_main_v55 (F := Ideal) x0 x1 x2 x3 x4 x5 := by
  funext i
  rw [val_main_v55_apply]
  generalize val_main_v53 (F := Ideal) x0 x1 x2 x3 x4 = y
  unfold Gcn.lin
  refine Finset.sum_congr rfl fun k _ => ?_
  rw [val_main_v54_apply]
  have e1 : lidx_main_v55 i k = ix2 (i 0) k := funext fun a => by
    match a with
    | ⟨0, _⟩ => rfl
    | ⟨1, _⟩ => rfl
  have e2 : idx_main_v54 (ridx_main_v55 i k) = ix2 (i 1) k := funext fun a => by
    match a with
    | ⟨0, _⟩ => rfl
    | ⟨1, _⟩ => rfl
  rw [e1, e2]
  rfl

/-- The second layer recomputes the product of the three per-edge factors by the same operations on the same
    operands, so it is the first layer's. -/
private theorem mirror36 (x1 : A1) (x2 : A2) : val_main_v81 (F := Ideal) x1 x2 = val_main_v36 (F := Ideal) x1 x2 := rfl

/-- The second layer's messages, scaled by the same three per-edge factors as the first layer's. -/
theorem scale2 (x0 : A0) (x1 : A1) (x2 : A2) (x3 : A3) (x4 : A4) (x5 : A5)
    (hb : (⟨1, ![3300000]⟩ : Shape).BroadcastsInDim ⟨2, ![3300000, 1]⟩ ![0]) :
    Gcn.scale (val_main_v88 (F := Ideal) x0 x1 x2 x3 x4 x5)
      (broadcastInDim ⟨2, ![3300000, 1]⟩ ![0] hb (val_main_v27 (F := Ideal) x1 x2))
      (broadcastInDim ⟨2, ![3300000, 1]⟩ ![0] hb (val_main_v8 (F := Ideal) x2))
      (broadcastInDim ⟨2, ![3300000, 1]⟩ ![0] hb (val_main_v35 (F := Ideal) x1 x2))
      = val_main_v91 (F := Ideal) x0 x1 x2 x3 x4 x5 := by
  funext i
  rw [val_main_v91_apply, val_main_v90_apply, val_main_v89_apply, mirror36, val_main_v36_apply, val_main_v28_apply]
  unfold Gcn.scale
  rw [col_apply (by decide) _ hb (i 0), col_apply (by decide) _ hb (i 0), col_apply (by decide) _ hb (i 0)]
  have e : idx_main_v89 (idx_main_v90 i) = ix1 (i 0) := funext fun ax => by
    match ax with
    | ⟨0, _⟩ => rfl
  rw [e]
  rfl

/-- The binary32 word of `−∞` denotes `⊥`. -/
private theorem ofBits_neg_inf : Ideal.ofBits .f32 0xFF800000#32 = (⊥ : EReal) := by
  simp [Ideal.ofBits, Ideal.ieee]

/-- The reduced row index `p` with lane `k` put back is `(p, k)`. -/
private theorem lift_ix1 {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- From `−∞` the reduce with a maximum body over the lanes of an `[m, n]` array, at row `p`, is the fold of max
    from `⊥` over the row's entries. -/
private theorem hostRowMax_apply {m n : ℕ} (z : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduce FloatOps.maximumf z (constant (F := Ideal) (⟨0, ![]⟩ : Shape) .f32 0xFF800000#32) h' hu (ix1 p)
      = (Finset.univ : Finset (Fin n)).fold max ⊥ (fun k => z (ix2 p k)) := by
  rw [Host.reduce_eq_fold_single FloatOps.maximumf z _ h' h hu]
  have hf : (z ∘ h.lift (ix1 p)) = fun k : Fin n => z (ix2 p k) := funext fun k => congrArg z (lift_ix1 h p k)
  rw [← ofBits_neg_inf]
  exact congrArg (fun f => Finset.fold max (Ideal.ofBits .f32 0xFF800000#32) f (Finset.univ : Finset (Fin n))) hf

/-- The second layer's biased scores are the reference's scatter result plus the bias row broadcast down. -/
private theorem biased_eq (x0 : A0) (x1 : A1) (x2 : A2) (x3 : A3) (x4 : A4) (x5 : A5) (x6 : A6) (hc : (⟨1, ![16]⟩ : Shape).ShapeCasts ⟨2, ![1, 16]⟩) (p : Fin 100000) (c : Fin 16) :
    Gcn.biased (val_main_v94 (F := Ideal) x0 x1 x2 x3 x4 x5) (shapeCast ⟨2, ![1, 16]⟩ x6 hc) p c = val_main_v97 (F := Ideal) x0 x1 x2 x3 x4 x5 x6 (ix2 p c) := by
  unfold Gcn.biased
  rw [val_main_v97_apply, val_main_v96_apply, val_main_v95_apply, shapeCast_a_1a_apply x6 hc (0 : Fin 1) c]
  have e : idx_main_v95 (idx_main_v96 (ix2 p c)) = ix1 c := funext fun ax => by
    match ax with
    | ⟨0, _⟩ => rfl
  rw [e]
  rfl

/-- The reference's row maximum (the larger of `−∞` and the reduce of max from `−∞`) is the fold of max from `⊥`
    over the row of biased scores. -/
private theorem top_eq (x0 : A0) (x1 : A1) (x2 : A2) (x3 : A3) (x4 : A4) (x5 : A5) (x6 : A6) (p : Fin 100000) :
    val_main_call5_v2 (F := Ideal) x0 x1 x2 x3 x4 x5 x6 (ix1 p)
      = (Finset.univ : Finset (Fin 16)).fold max ⊥ (fun c => val_main_v97 (F := Ideal) x0 x1 x2 x3 x4 x5 x6 (ix2 p c)) := by
  rw [val_main_call5_v2_apply, val_main_call5_v1_apply, val_main_call5_cst_0_apply]
  unfold val_main_call5_v0 val_main_call5_cst
  generalize val_main_v97 (F := Ideal) x0 x1 x2 x3 x4 x5 x6 = z
  rw [hostRowMax_apply z Gen.reducesTo_S100000x16_S100000_d1 (by decide) Gen.h_S_ p]
  show max (Ideal.ofBits .f32 0xFF800000#32) _ = _
  rw [ofBits_neg_inf]
  exact max_bot_left _

/-- The reference's scores less the row maximum, at `(p, c)`. -/
private theorem shifted_eq (x0 : A0) (x1 : A1) (x2 : A2) (x3 : A3) (x4 : A4) (x5 : A5) (x6 : A6) (hc : (⟨1, ![16]⟩ : Shape).ShapeCasts ⟨2, ![1, 16]⟩) (p : Fin 100000) (c : Fin 16) :
    val_main_call5_v5 (F := Ideal) x0 x1 x2 x3 x4 x5 x6 (ix2 p c)
      = Gcn.biased (val_main_v94 (F := Ideal) x0 x1 x2 x3 x4 x5) (shapeCast ⟨2, ![1, 16]⟩ x6 hc) p c - Gcn.rowTop (val_main_v94 (F := Ideal) x0 x1 x2 x3 x4 x5) (shapeCast ⟨2, ![1, 16]⟩ x6 hc) p := by
  rw [val_main_call5_v5_apply, val_main_call5_v4_apply, val_main_call5_v3_apply]
  have e : idx_main_call5_v3 (idx_main_call5_v4 (ix2 p c)) = ix1 p := funext fun ax => by
    match ax with
    | ⟨0, _⟩ => rfl
  rw [e, top_eq]
  unfold Gcn.rowTop
  simp only [biased_eq x0 x1 x2 x3 x4 x5 x6 hc]
  rfl

/-- The layer function read at `(p, c)`. -/
private theorem biasLogSoftmax_apply {n b : ℕ} (x : FVec Ideal ⟨2, ![n, b]⟩ .f32) (bias : FVec Ideal ⟨2, ![1, b]⟩ .f32)
    (p : Fin n) (c : Fin b) :
    Gcn.biasLogSoftmax x bias (ix2 p c) = (Gcn.biased x bias p c - Gcn.rowTop x bias p)
      - Ideal.log (∑ k : Fin b, Ideal.exp (Gcn.biased x bias p k - Gcn.rowTop x bias p)) := rfl

/-- The second layer's bias and row-wise log-softmax, the bias given as a one-row array. -/
theorem logSoftmax2 (x0 : A0) (x1 : A1) (x2 : A2) (x3 : A3) (x4 : A4) (x5 : A5) (x6 : A6)
    (hc : (⟨1, ![16]⟩ : Shape).ShapeCasts ⟨2, ![1, 16]⟩) :
    Gcn.biasLogSoftmax (val_main_v94 (F := Ideal) x0 x1 x2 x3 x4 x5) (shapeCast ⟨2, ![1, 16]⟩ x6 hc)
      = val_main_v98 (F := Ideal) x0 x1 x2 x3 x4 x5 x6 := by
  funext i
  obtain ⟨p, c, rfl⟩ : ∃ (p : Fin 100000) (c : Fin 16), i = ix2 p c := ⟨i 0, i 1, eq_ix2 i⟩
  rw [biasLogSoftmax_apply, val_main_v98_apply, val_main_call5_v10_apply, val_main_call5_v9_apply,
    val_main_call5_v8_apply, val_main_call5_v7_apply, val_main_call5_cst_1_apply]
  have e1 : idx_main_call5_v8 (idx_main_call5_v10 (ix2 p c)) = ix1 p := funext fun ax => by
    match ax with
    | ⟨0, _⟩ => rfl
  have e2 : ∀ k : Fin 16, idx_main_call5_v7 (ix1 p) k = ix2 p k := fun k => funext fun ax => by
    match ax with
    | ⟨0, _⟩ => rfl
    | ⟨1, _⟩ => rfl
  have h0 : FloatOps.ofBits (F := Ideal) .f32 0x00000000#32 = (0 : EReal) := Ideal.ofBits_zero_f32
  have hs : ∀ k : Fin 16, val_main_call5_v6 (F := Ideal) x0 x1 x2 x3 x4 x5 x6 (idx_main_call5_v7 (ix1 p) k)
      = Ideal.exp (Gcn.biased (val_main_v94 (F := Ideal) x0 x1 x2 x3 x4 x5) (shapeCast ⟨2, ![1, 16]⟩ x6 hc) p k
        - Gcn.rowTop (val_main_v94 (F := Ideal) x0 x1 x2 x3 x4 x5) (shapeCast ⟨2, ![1, 16]⟩ x6 hc) p) := fun k => by
    rw [e2 k, val_main_call5_v6_apply, shifted_eq x0 x1 x2 x3 x4 x5 x6 hc p k, Ideal.hostUnary_exp_def]
  rw [e1, h0, zero_add, Finset.sum_congr rfl (fun k _ => hs k), shifted_eq x0 x1 x2 x3 x4 x5 x6 hc p c,
    Ideal.subf_def, Ideal.hostUnary_log_def]

end Cert.Bridge

end
-- ==== Proof.KernelChainB.lean ====
/-
  The program's result buffer, read through the fold of buffer contents over its host operations and its six
  pipelined regions, is the reference's last stage applied to the argument arrays.

  Boundary by boundary: a region leaves in its output array the layer function of the arrays it found on entry
  (the dense product, the per-edge scaling, the bias with the positive part, the bias with the row-wise
  log-softmax), and that layer function of the reference's stages is the reference's next stage; a stretch of host
  operations (the gather of the rows at the row index, the sum of the messages at the column index, the bias
  reshaped to one row) is the same operation the reference applies; every other buffer keeps its contents.
-/
import proofs.«127246_j2499670966350_1_alg».proof.Proof.KernelChainA
import proofs.«127246_j2499670966350_1_alg».proof.Proof.RegionFinals
import proofs.«127246_j2499670966350_1_alg».proof.Proof.Bridge

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-! ## What the later stretches of host operations write -/

/-- The references the first gather's stretch writes. -/
abbrev ops1_W : List (Ref sig .tc) := [main_c_8, main_v37, main_v38, main_c_9, main_v39, main_v40, main_v41, main_v42, main_v43]
theorem ops1_writes : (hostOps1 : List (HloOp τ sig (Elt Ideal))).Forall fun op => op.writes ⊆ (ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W7_of (r : Ref sig .tc) (h : r ∉ ops1_W) : W7 m ρ c (Proc.devRef .tc r) = W6 m ρ c (Proc.devRef .tc r) :=
  StableHlo.after_of_writes_sub hostOps1 _ ops1_writes h
/-- The references the first aggregation's stretch writes. -/
abbrev ops2_W : List (Ref sig .tc) := [main_cst_10, main_v45, main_v46, main_v47, main_v48]
theorem ops2_writes : (hostOps2 : List (HloOp τ sig (Elt Ideal))).Forall fun op => op.writes ⊆ (ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W9_of (r : Ref sig .tc) (h : r ∉ ops2_W) : W9 m ρ c (Proc.devRef .tc r) = W8 m ρ c (Proc.devRef .tc r) :=
  StableHlo.after_of_writes_sub hostOps2 _ ops2_writes h
/-- The references the second gather's stretch writes. -/
abbrev ops4_W : List (Ref sig .tc) := [main_c_11, main_v51, main_v52, main_c_12, main_v53, main_v54, main_v55, main_v56, main_v57]
theorem ops4_writes : (hostOps4 : List (HloOp τ sig (Elt Ideal))).Forall fun op => op.writes ⊆ (ops4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W12_of (r : Ref sig .tc) (h : r ∉ ops4_W) : W12 m ρ c (Proc.devRef .tc r) = W11 m ρ c (Proc.devRef .tc r) :=
  StableHlo.after_of_writes_sub hostOps4 _ ops4_writes h
/-- The references the second aggregation's stretch writes. -/
abbrev ops5_W : List (Ref sig .tc) := [main_cst_13, main_v59, main_v60, main_v61, main_v62]
theorem ops5_writes : (hostOps5 : List (HloOp τ sig (Elt Ideal))).Forall fun op => op.writes ⊆ (ops5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W14_of (r : Ref sig .tc) (h : r ∉ ops5_W) : W14 m ρ c (Proc.devRef .tc r) = W13 m ρ c (Proc.devRef .tc r) :=
  StableHlo.after_of_writes_sub hostOps5 _ ops5_writes h

/-! ## Region 0: the first dense layer -/

/-- The node features times the transposed first weights. -/
theorem W6_v36 : W6 m ρ c (Proc.devRef .tc main_v36) = val_main_v10 (F := Ideal) (m ((c : Thread nD τ).loc main_arg0)) (m ((c : Thread nD τ).loc main_arg3)) := by
  refine ((W6_arr m ρ c 2).trans (final0 (V5 m ρ) c)).trans ?_
  rw [show V5 m ρ c main_arg0 = _ from W5_arg0 m ρ c,
    show V5 m ρ c main_arg3 = _ from W5_arg3 m ρ c]
  exact Cert.Bridge.lin1 _ _
theorem W6_v3 : W6 m ρ c (Proc.devRef .tc main_v3) = val_main_v3 (F := Ideal) (m ((c : Thread nD τ).loc main_arg1)) :=
  (W6_of_ne m ρ c main_v3 (by decide)).trans (W5_v3 m ρ c)
theorem W6_v6 : W6 m ρ c (Proc.devRef .tc main_v6) = val_main_v6 (F := Ideal) (m ((c : Thread nD τ).loc main_arg1)) :=
  (W6_of_ne m ρ c main_v6 (by decide)).trans (W5_v6 m ρ c)
theorem W6_v26 : W6 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  (W6_of_ne m ρ c main_v26 (by decide)).trans (W5_v26 m ρ c)
theorem W6_v34 : W6 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  (W6_of_ne m ρ c main_v34 (by decide)).trans (W5_v34 m ρ c)
theorem W6_v35 : W6 m ρ c (Proc.devRef .tc main_v35) = broadcastInDim S3300000x1 ![0] bcast_S3300000_S3300000x1_0 (val_main_v8 (F := Ideal) (m ((c : Thread nD τ).loc main_arg2))) :=
  (W6_of_ne m ρ c main_v35 (by decide)).trans (W5_v35 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)

/-! ## The rows gathered at each edge's row index -/

/-- The first layer's features of each edge's source. -/
theorem W7_v43 : W7 m ρ c (Proc.devRef .tc main_v43) = val_main_v43 (F := Ideal) (m ((c : Thread nD τ).loc main_arg0)) (m ((c : Thread nD τ).loc main_arg1)) (m ((c : Thread nD τ).loc main_arg3)) := by
  show StableHlo.after hostOps1 (W6 m ρ c) (Proc.devRef .tc main_v43) = _
  have h0 := W6_v36 m ρ c
  have h1 := W6_v3 m ρ c
  generalize W6 m ρ c = V at h0 h1 ⊢
  after_results
  rw [h0, h1] <;> rfl
theorem W7_v3 : W7 m ρ c (Proc.devRef .tc main_v3) = val_main_v3 (F := Ideal) (m ((c : Thread nD τ).loc main_arg1)) :=
  (W7_of m ρ c main_v3 (by decide)).trans (W6_v3 m ρ c)
theorem W7_v6 : W7 m ρ c (Proc.devRef .tc main_v6) = val_main_v6 (F := Ideal) (m ((c : Thread nD τ).loc main_arg1)) :=
  (W7_of m ρ c main_v6 (by decide)).trans (W6_v6 m ρ c)
theorem W7_v26 : W7 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  (W7_of m ρ c main_v26 (by decide)).trans (W6_v26 m ρ c)
theorem W7_v34 : W7 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  (W7_of m ρ c main_v34 (by decide)).trans (W6_v34 m ρ c)
theorem W7_v35 : W7 m ρ c (Proc.devRef .tc main_v35) = broadcastInDim S3300000x1 ![0] bcast_S3300000_S3300000x1_0 (val_main_v8 (F := Ideal) (m ((c : Thread nD τ).loc main_arg2))) :=
  (W7_of m ρ c main_v35 (by decide)).trans (W6_v35 m ρ c)
theorem W7_arg4 : W7 m ρ c (Proc.devRef .tc main_arg4) = (m ((c : Thread nD τ).loc main_arg4)) :=
  (W7_of m ρ c main_arg4 (by decide)).trans (W6_arg4 m ρ c)
theorem W7_arg5 : W7 m ρ c (Proc.devRef .tc main_arg5) = (m ((c : Thread nD τ).loc main_arg5)) :=
  (W7_of m ρ c main_arg5 (by decide)).trans (W6_arg5 m ρ c)
theorem W7_arg6 : W7 m ρ c (Proc.devRef .tc main_arg6) = (m ((c : Thread nD τ).loc main_arg6)) :=
  (W7_of m ρ c main_arg6 (by decide)).trans (W6_arg6 m ρ c)

/-! ## Region 1: the first layer's messages -/

/-- The gathered rows scaled by the symmetric normalisation. -/
theorem W8_v44 : W8 m ρ c (Proc.devRef .tc main_v44) = val_main_v46 (F := Ideal) (m ((c : Thread nD τ).loc main_arg0)) (m ((c : Thread nD τ).loc main_arg1)) (m ((c : Thread nD τ).loc main_arg2)) (m ((c : Thread nD τ).loc main_arg3)) := by
  refine ((W8_arr m ρ c 4).trans (final1 (V7 m ρ) c)).trans ?_
  rw [show V7 m ρ c main_v43 = _ from W7_v43 m ρ c,
    show V7 m ρ c main_v26 = _ from W7_v26 m ρ c,
    show V7 m ρ c main_v35 = _ from W7_v35 m ρ c,
    show V7 m ρ c main_v34 = _ from W7_v34 m ρ c]
  exact Cert.Bridge.scale1 _ _ _ _ _
theorem W8_v3 : W8 m ρ c (Proc.devRef .tc main_v3) = val_main_v3 (F := Ideal) (m ((c : Thread nD τ).loc main_arg1)) :=
  (W8_of_ne m ρ c main_v3 (by decide)).trans (W7_v3 m ρ c)
theorem W8_v6 : W8 m ρ c (Proc.devRef .tc main_v6) = val_main_v6 (F := Ideal) (m ((c : Thread nD τ).loc main_arg1)) :=
  (W8_of_ne m ρ c main_v6 (by decide)).trans (W7_v6 m ρ c)
theorem W8_arg4 : W8 m ρ c (Proc.devRef .tc main_arg4) = (m ((c : Thread nD τ).loc main_arg4)) :=
  (W8_of_ne m ρ c main_arg4 (by decide)).trans (W7_arg4 m ρ c)
theorem W8_arg5 : W8 m ρ c (Proc.devRef .tc main_arg5) = (m ((c : Thread nD τ).loc main_arg5)) :=
  (W8_of_ne m ρ c main_arg5 (by decide)).trans (W7_arg5 m ρ c)
theorem W8_arg6 : W8 m ρ c (Proc.devRef .tc main_arg6) = (m ((c : Thread nD τ).loc main_arg6)) :=
  (W8_of_ne m ρ c main_arg6 (by decide)).trans (W7_arg6 m ρ c)
theorem W8_v26 : W8 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  ((W8_arr m ρ c 1).trans (((dat1 (V7 m ρ) c).arrAt_in 1 rfl _).trans (A_eq1 (V7 m ρ) c 1))).trans (W7_v26 m ρ c)
theorem W8_v35 : W8 m ρ c (Proc.devRef .tc main_v35) = broadcastInDim S3300000x1 ![0] bcast_S3300000_S3300000x1_0 (val_main_v8 (F := Ideal) (m ((c : Thread nD τ).loc main_arg2))) :=
  ((W8_arr m ρ c 2).trans (((dat1 (V7 m ρ) c).arrAt_in 2 rfl _).trans (A_eq1 (V7 m ρ) c 2))).trans (W7_v35 m ρ c)
theorem W8_v34 : W8 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  ((W8_arr m ρ c 3).trans (((dat1 (V7 m ρ) c).arrAt_in 3 rfl _).trans (A_eq1 (V7 m ρ) c 3))).trans (W7_v34 m ρ c)

/-! ## The messages summed at each edge's column index, and the first bias as one row -/

/-- The first layer's aggregate. -/
theorem W9_v47 : W9 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) := by
  show StableHlo.after hostOps2 (W8 m ρ c) (Proc.devRef .tc main_v47) = _
  have h0 := W8_v6 m ρ c
  have h1 := W8_v44 m ρ c
  generalize W8 m ρ c = V at h0 h1 ⊢
  after_results
  rw [h0, h1] <;> rfl
/-- The first bias as a one-row array. -/
theorem W9_v48 : W9 m ρ c (Proc.devRef .tc main_v48) = shapeCast S1x64 (m ((c : Thread nD τ).loc main_arg4)) shapeCasts_S64_S1x64 := by
  show StableHlo.after hostOps2 (W8 m ρ c) (Proc.devRef .tc main_v48) = _
  have h0 := W8_arg4 m ρ c
  generalize W8 m ρ c = V at h0 ⊢
  after_results
  rw [h0] <;> rfl
theorem W9_v3 : W9 m ρ c (Proc.devRef .tc main_v3) = val_main_v3 (F := Ideal) (m ((c : Thread nD τ).loc main_arg1)) :=
  (W9_of m ρ c main_v3 (by decide)).trans (W8_v3 m ρ c)
theorem W9_v6 : W9 m ρ c (Proc.devRef .tc main_v6) = val_main_v6 (F := Ideal) (m ((c : Thread nD τ).loc main_arg1)) :=
  (W9_of m ρ c main_v6 (by decide)).trans (W8_v6 m ρ c)
theorem W9_v26 : W9 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  (W9_of m ρ c main_v26 (by decide)).trans (W8_v26 m ρ c)
theorem W9_v34 : W9 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  (W9_of m ρ c main_v34 (by decide)).trans (W8_v34 m ρ c)
theorem W9_v35 : W9 m ρ c (Proc.devRef .tc main_v35) = broadcastInDim S3300000x1 ![0] bcast_S3300000_S3300000x1_0 (val_main_v8 (F := Ideal) (m ((c : Thread nD τ).loc main_arg2))) :=
  (W9_of m ρ c main_v35 (by decide)).trans (W8_v35 m ρ c)
theorem W9_arg5 : W9 m ρ c (Proc.devRef .tc main_arg5) = (m ((c : Thread nD τ).loc main_arg5)) :=
  (W9_of m ρ c main_arg5 (by decide)).trans (W8_arg5 m ρ c)
theorem W9_arg6 : W9 m ρ c (Proc.devRef .tc main_arg6) = (m ((c : Thread nD τ).loc main_arg6)) :=
  (W9_of m ρ c main_arg6 (by decide)).trans (W8_arg6 m ρ c)

/-! ## Region 2: the first bias and the positive part -/

/-- The hidden features. -/
theorem W10_v49 : W10 m ρ c (Proc.devRef .tc main_v49) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W10_arr m ρ c 2).trans (final2 (V9 m ρ) c)).trans ?_
  rw [show V9 m ρ c main_v47 = _ from W9_v47 m ρ c,
    show V9 m ρ c main_v48 = _ from W9_v48 m ρ c]
  exact Cert.Bridge.relu1 _ _ _ _ _ _
theorem W10_v3 : W10 m ρ c (Proc.devRef .tc main_v3) = val_main_v3 (F := Ideal) (m ((c : Thread nD τ).loc main_arg1)) :=
  (W10_of_ne m ρ c main_v3 (by decide)).trans (W9_v3 m ρ c)
theorem W10_v6 : W10 m ρ c (Proc.devRef .tc main_v6) = val_main_v6 (F := Ideal) (m ((c : Thread nD τ).loc main_arg1)) :=
  (W10_of_ne m ρ c main_v6 (by decide)).trans (W9_v6 m ρ c)
theorem W10_v26 : W10 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  (W10_of_ne m ρ c main_v26 (by decide)).trans (W9_v26 m ρ c)
theorem W10_v34 : W10 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  (W10_of_ne m ρ c main_v34 (by decide)).trans (W9_v34 m ρ c)
theorem W10_v35 : W10 m ρ c (Proc.devRef .tc main_v35) = broadcastInDim S3300000x1 ![0] bcast_S3300000_S3300000x1_0 (val_main_v8 (F := Ideal) (m ((c : Thread nD τ).loc main_arg2))) :=
  (W10_of_ne m ρ c main_v35 (by decide)).trans (W9_v35 m ρ c)
theorem W10_arg5 : W10 m ρ c (Proc.devRef .tc main_arg5) = (m ((c : Thread nD τ).loc main_arg5)) :=
  (W10_of_ne m ρ c main_arg5 (by decide)).trans (W9_arg5 m ρ c)
theorem W10_arg6 : W10 m ρ c (Proc.devRef .tc main_arg6) = (m ((c : Thread nD τ).loc main_arg6)) :=
  (W10_of_ne m ρ c main_arg6 (by decide)).trans (W9_arg6 m ρ c)

/-! ## Region 3: the second dense layer -/

/-- The hidden features times the transposed second weights. -/
theorem W11_v50 : W11 m ρ c (Proc.devRef .tc main_v50) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W11_arr m ρ c 2).trans (final3 (V10 m ρ) c)).trans ?_
  rw [show V10 m ρ c main_v49 = _ from W10_v49 m ρ c,
    show V10 m ρ c main_arg5 = _ from W10_arg5 m ρ c]
  exact Cert.Bridge.lin2 _ _ _ _ _ _
theorem W11_v3 : W11 m ρ c (Proc.devRef .tc main_v3) = val_main_v3 (F := Ideal) (m ((c : Thread nD τ).loc main_arg1)) :=
  (W11_of_ne m ρ c main_v3 (by decide)).trans (W10_v3 m ρ c)
theorem W11_v6 : W11 m ρ c (Proc.devRef .tc main_v6) = val_main_v6 (F := Ideal) (m ((c : Thread nD τ).loc main_arg1)) :=
  (W11_of_ne m ρ c main_v6 (by decide)).trans (W10_v6 m ρ c)
theorem W11_v26 : W11 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  (W11_of_ne m ρ c main_v26 (by decide)).trans (W10_v26 m ρ c)
theorem W11_v34 : W11 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  (W11_of_ne m ρ c main_v34 (by decide)).trans (W10_v34 m ρ c)
theorem W11_v35 : W11 m ρ c (Proc.devRef .tc main_v35) = broadcastInDim S3300000x1 ![0] bcast_S3300000_S3300000x1_0 (val_main_v8 (F := Ideal) (m ((c : Thread nD τ).loc main_arg2))) :=
  (W11_of_ne m ρ c main_v35 (by decide)).trans (W10_v35 m ρ c)
theorem W11_arg6 : W11 m ρ c (Proc.devRef .tc main_arg6) = (m ((c : Thread nD τ).loc main_arg6)) :=
  (W11_of_ne m ρ c main_arg6 (by decide)).trans (W10_arg6 m ρ c)

/-! ## The rows gathered at each edge's row index, second layer -/

/-- The second layer's features of each edge's source. -/
theorem W12_v57 : W12 m ρ c (Proc.devRef .tc main_v57) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W11 m ρ c) (Proc.devRef .tc main_v57) = _
  have h0 := W11_v50 m ρ c
  have h1 := W11_v3 m ρ c
  generalize W11 m ρ c = V at h0 h1 ⊢
  after_results
  rw [h0, h1] <;> rfl
theorem W12_v6 : W12 m ρ c (Proc.devRef .tc main_v6) = val_main_v6 (F := Ideal) (m ((c : Thread nD τ).loc main_arg1)) :=
  (W12_of m ρ c main_v6 (by decide)).trans (W11_v6 m ρ c)
theorem W12_v26 : W12 m ρ c (Proc.devRef .tc main_v26) = broadcastInDim S3300000x1 ![0] bcast_S3300000_S3300000x1_0 (val_main_v27 (F := Ideal) (m ((c : Thread nD τ).loc main_arg1)) (m ((c : Thread nD τ).loc main_arg2))) :=
  (W12_of m ρ c main_v26 (by decide)).trans (W11_v26 m ρ c)
theorem W12_v34 : W12 m ρ c (Proc.devRef .tc main_v34) = broadcastInDim S3300000x1 ![0] bcast_S3300000_S3300000x1_0 (val_main_v35 (F := Ideal) (m ((c : Thread nD τ).loc main_arg1)) (m ((c : Thread nD τ).loc main_arg2))) :=
  (W12_of m ρ c main_v34 (by decide)).trans (W11_v34 m ρ c)
theorem W12_v35 : W12 m ρ c (Proc.devRef .tc main_v35) = broadcastInDim S3300000x1 ![0] bcast_S3300000_S3300000x1_0 (val_main_v8 (F := Ideal) (m ((c : Thread nD τ).loc main_arg2))) :=
  (W12_of m ρ c main_v35 (by decide)).trans (W11_v35 m ρ c)
theorem W12_arg6 : W12 m ρ c (Proc.devRef .tc main_arg6) = (m ((c : Thread nD τ).loc main_arg6)) :=
  (W12_of m ρ c main_arg6 (by decide)).trans (W11_arg6 m ρ c)

/-! ## Region 4: the second layer's messages -/

/-- The gathered rows scaled by the same normalisation. -/
theorem W13_v58 : W13 m ρ c (Proc.devRef .tc main_v58) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W13_arr m ρ c 4).trans (final4 (V12 m ρ) c)).trans ?_
  rw [show V12 m ρ c main_v57 = _ from W12_v57 m ρ c,
    show V12 m ρ c main_v26 = _ from W12_v26 m ρ c,
    show V12 m ρ c main_v35 = _ from W12_v35 m ρ c,
    show V12 m ρ c main_v34 = _ from W12_v34 m ρ c]
  exact Cert.Bridge.scale2 _ _ _ _ _ _ _
theorem W13_v6 : W13 m ρ c (Proc.devRef .tc main_v6) = val_main_v6 (F := Ideal) (m ((c : Thread nD τ).loc main_arg1)) :=
  (W13_of_ne m ρ c main_v6 (by decide)).trans (W12_v6 m ρ c)
theorem W13_arg6 : W13 m ρ c (Proc.devRef .tc main_arg6) = (m ((c : Thread nD τ).loc main_arg6)) :=
  (W13_of_ne m ρ c main_arg6 (by decide)).trans (W12_arg6 m ρ c)

/-! ## The messages summed at each edge's column index, and the second bias as one row -/

/-- The second layer's aggregate. -/
theorem W14_v61 : W14 m ρ c (Proc.devRef .tc main_v61) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps5 (W13 m ρ c) (Proc.devRef .tc main_v61) = _
  have h0 := W13_v6 m ρ c
  have h1 := W13_v58 m ρ c
  generalize W13 m ρ c = V at h0 h1 ⊢
  after_results
  rw [h0, h1] <;> rfl
/-- The second bias as a one-row array. -/
theorem W14_v62 : W14 m ρ c (Proc.devRef .tc main_v62) = shapeCast S1x16 (m ((c : Thread nD τ).loc main_arg6)) shapeCasts_S16_S1x16 := by
  show StableHlo.after hostOps5 (W13 m ρ c) (Proc.devRef .tc main_v62) = _
  have h0 := W13_arg6 m ρ c
  generalize W13 m ρ c = V at h0 ⊢
  after_results
  rw [h0] <;> rfl

/-! ## Region 5: the second bias and the row-wise log-softmax -/

/-- The class scores. -/
theorem W15_v63 : W15 m ρ c (Proc.devRef .tc main_v63) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W15_arr m ρ c 2).trans (final5 (V14 m ρ) c)).trans ?_
  rw [show V14 m ρ c main_v61 = _ from W14_v61 m ρ c,
    show V14 m ρ c main_v62 = _ from W14_v62 m ρ c]
  exact Cert.Bridge.logSoftmax2 _ _ _ _ _ _ _ _

/-- The result buffer at the program's end is the reference's last stage of the seven argument arrays. -/
theorem result_eq (m : (ℓ : Loc nD τ sig) → Buf (Elt Ideal) ℓ) (ρ : Dev nD → PrngReg) (c : Dev nD) :
    W15 m ρ c (Proc.devRef .tc main_v63) = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  W15_v63 m ρ c

end Cert.KernelIdeal.Hand

end
-- ==== Proof.RefValue.lean ====
/-
  The reference program's run, read as a value.

  The reference is a straight line of 148 tensor operations (a two-layer graph convolution followed by a row-wise
  log-softmax). Its run ends with every buffer at the fold of the operations' results over the launch contents
  (`ValueP.run_after`). Here that fold is read at the result buffer as the last stage of the reference's value chain
  (`ReadP.val_main_v98`: one definition per operation, each from the earlier stages, as functions of the seven argument
  arrays), without ever forming the composed term of the whole program.

  The fold over a concatenation is the fold over the second list from the fold over the first. So the program is cut
  into twelve consecutive pieces, and each piece is read over an ARBITRARY valuation `W`: if `W` holds the earlier
  stages at the buffers the rest of the program still reads, then after the piece the buffers it writes hold its
  stages and the others are unchanged. Inside one piece the composed term is small (at most twenty operations over
  the variable `W`), and it meets the stage's definition by unfolding the definitions of that piece only. The pieces
  are then chained from the launch contents, where the argument buffers hold the arguments themselves.
-/
import proofs.«127246_j2499670966350_1_alg».proof.Proof.RefRunP
import proofs.«127246_j2499670966350_1_alg».proof.Proof.ReadP
import Idealize.ShloMosaic.Lib.Pipeline.Frame

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The edge list with the self loops appended: the source row, the target row and the edge weights, each followed by one entry per node (the node's own index, weight one).
    From any contents `W` that hold the earlier stages at the buffers still to be read, the contents after these
    operations hold the stages they compute, and every buffer they do not write is unchanged. -/
theorem specA (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after opsA W (Proc.devRef .tc main_arg0) = x0)
      ∧ (after opsA W (Proc.devRef .tc main_arg3) = x3)
      ∧ (after opsA W (Proc.devRef .tc main_arg4) = x4)
      ∧ (after opsA W (Proc.devRef .tc main_arg5) = x5)
      ∧ (after opsA W (Proc.devRef .tc main_arg6) = x6)
      ∧ (after opsA W (Proc.devRef .tc main_v3) = ReadP.val_main_v3 (F := F) x1)
      ∧ (after opsA W (Proc.devRef .tc main_v6) = ReadP.val_main_v6 (F := F) x1)
      ∧ (after opsA W (Proc.devRef .tc main_v8) = ReadP.val_main_v8 (F := F) x2) :=
  ⟨by after_results_simp; exact h_main_arg0,
   by after_results_simp; exact h_main_arg3,
   by after_results_simp; exact h_main_arg4,
   by after_results_simp; exact h_main_arg5,
   by after_results_simp; exact h_main_arg6,
   by after_results; rw [h_main_arg1]; rfl,
   by after_results; rw [h_main_arg1]; rfl,
   by after_results; rw [h_main_arg2]; rfl⟩

/-- The first dense product: the features times the transposed first weight matrix.
    From any contents `W` that hold the earlier stages at the buffers still to be read, the contents after these
    operations hold the stages they compute, and every buffer they do not write is unchanged. -/
theorem specB (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2) :
    (after opsB W (Proc.devRef .tc main_arg4) = x4)
      ∧ (after opsB W (Proc.devRef .tc main_arg5) = x5)
      ∧ (after opsB W (Proc.devRef .tc main_arg6) = x6)
      ∧ (after opsB W (Proc.devRef .tc main_v3) = ReadP.val_main_v3 (F := F) x1)
      ∧ (after opsB W (Proc.devRef .tc main_v6) = ReadP.val_main_v6 (F := F) x1)
      ∧ (after opsB W (Proc.devRef .tc main_v8) = ReadP.val_main_v8 (F := F) x2)
      ∧ (after opsB W (Proc.devRef .tc main_v10) = ReadP.val_main_v10 (F := F) x0 x3) :=
  ⟨by after_results_simp; exact h_main_arg4,
   by after_results_simp; exact h_main_arg5,
   by after_results_simp; exact h_main_arg6,
   by after_results_simp; exact h_main_v3,
   by after_results_simp; exact h_main_v6,
   by after_results_simp; exact h_main_v8,
   by after_results_simp; simp only [h_main_arg0, h_main_arg3, cast_eq]; rfl⟩

/-- The weighted in-degree of every node (a scatter-add of the edge weights at the target row) and its inverse square root, zero where the degree is not positive.
    From any contents `W` that hold the earlier stages at the buffers still to be read, the contents after these
    operations hold the stages they compute, and every buffer they do not write is unchanged. -/
theorem specC (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg4 : W (Proc.devRef .tc main_arg4) = x4)
    (h_main_arg5 : W (Proc.devRef .tc main_arg5) = x5)
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v10 : W (Proc.devRef .tc main_v10) = ReadP.val_main_v10 (F := F) x0 x3) :
    (after opsC W (Proc.devRef .tc main_arg4) = x4)
      ∧ (after opsC W (Proc.devRef .tc main_arg5) = x5)
      ∧ (after opsC W (Proc.devRef .tc main_arg6) = x6)
      ∧ (after opsC W (Proc.devRef .tc main_v3) = ReadP.val_main_v3 (F := F) x1)
      ∧ (after opsC W (Proc.devRef .tc main_v6) = ReadP.val_main_v6 (F := F) x1)
      ∧ (after opsC W (Proc.devRef .tc main_v8) = ReadP.val_main_v8 (F := F) x2)
      ∧ (after opsC W (Proc.devRef .tc main_v10) = ReadP.val_main_v10 (F := F) x0 x3)
      ∧ (after opsC W (Proc.devRef .tc main_v20) = ReadP.val_main_v20 (F := F) x1 x2) :=
  ⟨by after_results_simp; exact h_main_arg4,
   by after_results_simp; exact h_main_arg5,
   by after_results_simp; exact h_main_arg6,
   by after_results_simp; exact h_main_v3,
   by after_results_simp; exact h_main_v6,
   by after_results_simp; exact h_main_v8,
   by after_results_simp; exact h_main_v10,
   by after_results_simp; simp only [h_main_v6, h_main_v8, cast_eq]; rfl⟩

/-- The symmetric edge normalisation: the inverse root degree gathered at the source row, times the edge weight, times the inverse root degree gathered at the target row (negative indices wrapped by the node count).
    From any contents `W` that hold the earlier stages at the buffers still to be read, the contents after these
    operations hold the stages they compute, and every buffer they do not write is unchanged. -/
theorem specD (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg4 : W (Proc.devRef .tc main_arg4) = x4)
    (h_main_arg5 : W (Proc.devRef .tc main_arg5) = x5)
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v10 : W (Proc.devRef .tc main_v10) = ReadP.val_main_v10 (F := F) x0 x3)
    (h_main_v20 : W (Proc.devRef .tc main_v20) = ReadP.val_main_v20 (F := F) x1 x2) :
    (after opsD W (Proc.devRef .tc main_arg4) = x4)
      ∧ (after opsD W (Proc.devRef .tc main_arg5) = x5)
      ∧ (after opsD W (Proc.devRef .tc main_arg6) = x6)
      ∧ (after opsD W (Proc.devRef .tc main_v3) = ReadP.val_main_v3 (F := F) x1)
      ∧ (after opsD W (Proc.devRef .tc main_v6) = ReadP.val_main_v6 (F := F) x1)
      ∧ (after opsD W (Proc.devRef .tc main_v8) = ReadP.val_main_v8 (F := F) x2)
      ∧ (after opsD W (Proc.devRef .tc main_v10) = ReadP.val_main_v10 (F := F) x0 x3)
      ∧ (after opsD W (Proc.devRef .tc main_v36) = ReadP.val_main_v36 (F := F) x1 x2) :=
  ⟨by after_results_simp; exact h_main_arg4,
   by after_results_simp; exact h_main_arg5,
   by after_results_simp; exact h_main_arg6,
   by after_results_simp; exact h_main_v3,
   by after_results_simp; exact h_main_v6,
   by after_results_simp; exact h_main_v8,
   by after_results_simp; exact h_main_v10,
   by after_results_simp; simp only [h_main_v20, h_main_v3, h_main_v8, h_main_v6, cast_eq]; rfl⟩

/-- The first layer's messages: the projected features gathered at the source row, each row scaled by its edge's normalisation.
    From any contents `W` that hold the earlier stages at the buffers still to be read, the contents after these
    operations hold the stages they compute, and every buffer they do not write is unchanged. -/
theorem specE (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg4 : W (Proc.devRef .tc main_arg4) = x4)
    (h_main_arg5 : W (Proc.devRef .tc main_arg5) = x5)
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v10 : W (Proc.devRef .tc main_v10) = ReadP.val_main_v10 (F := F) x0 x3)
    (h_main_v36 : W (Proc.devRef .tc main_v36) = ReadP.val_main_v36 (F := F) x1 x2) :
    (after opsE W (Proc.devRef .tc main_arg4) = x4)
      ∧ (after opsE W (Proc.devRef .tc main_arg5) = x5)
      ∧ (after opsE W (Proc.devRef .tc main_arg6) = x6)
      ∧ (after opsE W (Proc.devRef .tc main_v3) = ReadP.val_main_v3 (F := F) x1)
      ∧ (after opsE W (Proc.devRef .tc main_v6) = ReadP.val_main_v6 (F := F) x1)
      ∧ (after opsE W (Proc.devRef .tc main_v8) = ReadP.val_main_v8 (F := F) x2)
      ∧ (after opsE W (Proc.devRef .tc main_v46) = ReadP.val_main_v46 (F := F) x0 x1 x2 x3) :=
  ⟨by after_results_simp; exact h_main_arg4,
   by after_results_simp; exact h_main_arg5,
   by after_results_simp; exact h_main_arg6,
   by after_results_simp; exact h_main_v3,
   by after_results_simp; exact h_main_v6,
   by after_results_simp; exact h_main_v8,
   by after_results_simp; simp only [h_main_v10, h_main_v3, h_main_v36, cast_eq]; rfl⟩

/-- The first layer's aggregation: the messages scatter-added at the target row, plus the bias, then the rectifier.
    From any contents `W` that hold the earlier stages at the buffers still to be read, the contents after these
    operations hold the stages they compute, and every buffer they do not write is unchanged. -/
theorem specF (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg4 : W (Proc.devRef .tc main_arg4) = x4)
    (h_main_arg5 : W (Proc.devRef .tc main_arg5) = x5)
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v46 : W (Proc.devRef .tc main_v46) = ReadP.val_main_v46 (F := F) x0 x1 x2 x3) :
    (after opsF W (Proc.devRef .tc main_arg5) = x5)
      ∧ (after opsF W (Proc.devRef .tc main_arg6) = x6)
      ∧ (after opsF W (Proc.devRef .tc main_v3) = ReadP.val_main_v3 (F := F) x1)
      ∧ (after opsF W (Proc.devRef .tc main_v6) = ReadP.val_main_v6 (F := F) x1)
      ∧ (after opsF W (Proc.devRef .tc main_v8) = ReadP.val_main_v8 (F := F) x2)
      ∧ (after opsF W (Proc.devRef .tc main_v53) = ReadP.val_main_v53 (F := F) x0 x1 x2 x3 x4) :=
  ⟨by after_results_simp; exact h_main_arg5,
   by after_results_simp; exact h_main_arg6,
   by after_results_simp; exact h_main_v3,
   by after_results_simp; exact h_main_v6,
   by after_results_simp; exact h_main_v8,
   by after_results_simp; simp only [h_main_v6, h_main_v46, h_main_arg4, cast_eq]; rfl⟩

/-- The second dense product: the hidden features times the transposed second weight matrix.
    From any contents `W` that hold the earlier stages at the buffers still to be read, the contents after these
    operations hold the stages they compute, and every buffer they do not write is unchanged. -/
theorem specG (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg5 : W (Proc.devRef .tc main_arg5) = x5)
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v53 : W (Proc.devRef .tc main_v53) = ReadP.val_main_v53 (F := F) x0 x1 x2 x3 x4) :
    (after opsG W (Proc.devRef .tc main_arg6) = x6)
      ∧ (after opsG W (Proc.devRef .tc main_v3) = ReadP.val_main_v3 (F := F) x1)
      ∧ (after opsG W (Proc.devRef .tc main_v6) = ReadP.val_main_v6 (F := F) x1)
      ∧ (after opsG W (Proc.devRef .tc main_v8) = ReadP.val_main_v8 (F := F) x2)
      ∧ (after opsG W (Proc.devRef .tc main_v55) = ReadP.val_main_v55 (F := F) x0 x1 x2 x3 x4 x5) :=
  ⟨by after_results_simp; exact h_main_arg6,
   by after_results_simp; exact h_main_v3,
   by after_results_simp; exact h_main_v6,
   by after_results_simp; exact h_main_v8,
   by after_results_simp; simp only [h_main_v53, h_main_arg5, cast_eq]; rfl⟩

/-- The second layer computes the degree and its inverse square root again, from the same target row and edge weights.
    From any contents `W` that hold the earlier stages at the buffers still to be read, the contents after these
    operations hold the stages they compute, and every buffer they do not write is unchanged. -/
theorem specH (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v55 : W (Proc.devRef .tc main_v55) = ReadP.val_main_v55 (F := F) x0 x1 x2 x3 x4 x5) :
    (after opsH W (Proc.devRef .tc main_arg6) = x6)
      ∧ (after opsH W (Proc.devRef .tc main_v3) = ReadP.val_main_v3 (F := F) x1)
      ∧ (after opsH W (Proc.devRef .tc main_v6) = ReadP.val_main_v6 (F := F) x1)
      ∧ (after opsH W (Proc.devRef .tc main_v8) = ReadP.val_main_v8 (F := F) x2)
      ∧ (after opsH W (Proc.devRef .tc main_v55) = ReadP.val_main_v55 (F := F) x0 x1 x2 x3 x4 x5)
      ∧ (after opsH W (Proc.devRef .tc main_v65) = ReadP.val_main_v65 (F := F) x1 x2) :=
  ⟨by after_results_simp; exact h_main_arg6,
   by after_results_simp; exact h_main_v3,
   by after_results_simp; exact h_main_v6,
   by after_results_simp; exact h_main_v8,
   by after_results_simp; exact h_main_v55,
   by after_results_simp; simp only [h_main_v6, h_main_v8, cast_eq]; rfl⟩

/-- The second layer's edge normalisation, from the degree just recomputed.
    From any contents `W` that hold the earlier stages at the buffers still to be read, the contents after these
    operations hold the stages they compute, and every buffer they do not write is unchanged. -/
theorem specI (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v8 : W (Proc.devRef .tc main_v8) = ReadP.val_main_v8 (F := F) x2)
    (h_main_v55 : W (Proc.devRef .tc main_v55) = ReadP.val_main_v55 (F := F) x0 x1 x2 x3 x4 x5)
    (h_main_v65 : W (Proc.devRef .tc main_v65) = ReadP.val_main_v65 (F := F) x1 x2) :
    (after opsI W (Proc.devRef .tc main_arg6) = x6)
      ∧ (after opsI W (Proc.devRef .tc main_v3) = ReadP.val_main_v3 (F := F) x1)
      ∧ (after opsI W (Proc.devRef .tc main_v6) = ReadP.val_main_v6 (F := F) x1)
      ∧ (after opsI W (Proc.devRef .tc main_v55) = ReadP.val_main_v55 (F := F) x0 x1 x2 x3 x4 x5)
      ∧ (after opsI W (Proc.devRef .tc main_v81) = ReadP.val_main_v81 (F := F) x1 x2) :=
  ⟨by after_results_simp; exact h_main_arg6,
   by after_results_simp; exact h_main_v3,
   by after_results_simp; exact h_main_v6,
   by after_results_simp; exact h_main_v55,
   by after_results_simp; simp only [h_main_v65, h_main_v3, h_main_v8, h_main_v6, cast_eq]; rfl⟩

/-- The second layer's messages: the projected hidden features gathered at the source row, each row scaled by its edge's normalisation.
    From any contents `W` that hold the earlier stages at the buffers still to be read, the contents after these
    operations hold the stages they compute, and every buffer they do not write is unchanged. -/
theorem specJ (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg6 : W (Proc.devRef .tc main_arg6) = x6)
    (h_main_v3 : W (Proc.devRef .tc main_v3) = ReadP.val_main_v3 (F := F) x1)
    (h_main_v6 : W (Proc.devRef .tc main_v6) = ReadP.val_main_v6 (F := F) x1)
    (h_main_v55 : W (Proc.devRef .tc main_v55) = ReadP.val_main_v55 (F := F) x0 x1 x2 x3 x4 x5)
    (h_main_v81 : W (Proc.devRef .tc main_v81) = ReadP.val_main_v81 (F := F) x1 x2) :
    (after opsJ W (Proc.devRef .tc main_arg6) = x6)
      ∧ (after opsJ W (Proc.devRef .tc main_v6) = ReadP.val_main_v6 (F := F) x1)
      ∧ (after opsJ W (Proc.devRef .tc main_v91) = ReadP.val_main_v91 (F := F) x0 x1 x2 x3 x4 x5) :=
  ⟨by after_results_simp; exact h_main_arg6,
   by after_results_simp; exact h_main_v6,
   by after_results_simp; simp only [h_main_v55, h_main_v3, h_main_v81, cast_eq]; rfl⟩

/-- The second layer's aggregation: the messages scatter-added at the target row, plus the bias.
    From any contents `W` that hold the earlier stages at the buffers still to be read, the contents after these
    operations hold the stages they compute, and every buffer they do not write is unchanged. -/
theorem specK (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_arg6 : W (Proc.devRef .tc main_arg6) = x6)
    (h_main_v6 : W (Proc.devRef .tc main_v6) = ReadP.val_main_v6 (F := F) x1)
    (h_main_v91 : W (Proc.devRef .tc main_v91) = ReadP.val_main_v91 (F := F) x0 x1 x2 x3 x4 x5) :
    (after opsK W (Proc.devRef .tc main_v97) = ReadP.val_main_v97 (F := F) x0 x1 x2 x3 x4 x5 x6) :=
  by after_results_simp; simp only [h_main_v6, h_main_v91, h_main_arg6, cast_eq]; rfl

/-- The row-wise log-softmax of the logits: subtract the row maximum, then subtract the logarithm of the row sum of exponentials.
    From any contents `W` that hold the earlier stages at the buffers still to be read, the contents after these
    operations hold the stages they compute, and every buffer they do not write is unchanged. -/
theorem specL (W : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S64x512, .f32⟩ : BufTy).Contents (Elt F)) (x4 : (⟨S64, .f32⟩ : BufTy).Contents (Elt F)) (x5 : (⟨S16x64, .f32⟩ : BufTy).Contents (Elt F)) (x6 : (⟨S16, .f32⟩ : BufTy).Contents (Elt F))
    (h_main_v97 : W (Proc.devRef .tc main_v97) = ReadP.val_main_v97 (F := F) x0 x1 x2 x3 x4 x5 x6) :
    (after opsL W (Proc.devRef .tc main_v98) = ReadP.val_main_v98 (F := F) x0 x1 x2 x3 x4 x5 x6) :=
  by after_results_simp; simp only [h_main_v97, cast_eq]; rfl

/-- The whole reference program, read at its result buffer: from any launch contents `V`, the contents after the 148
    operations hold at the result buffer the last stage of the reference's value chain, as a function of the seven
    argument arrays `V` holds. The twelve pieces are chained: each is entered with the stages the earlier pieces left at
    the buffers still to be read, so no composed term of the whole program is ever formed. -/
theorem value (V : Valuation τ sig (Elt F)) :
    after ops V (Proc.devRef .tc main_v98)
      = ReadP.val_main_v98 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_eq]
  simp only [after_append]
  obtain ⟨a_main_arg0, a_main_arg3, a_main_arg4, a_main_arg5, a_main_arg6, a_main_v3, a_main_v6, a_main_v8⟩ := specA (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) rfl rfl rfl rfl rfl rfl rfl
  obtain ⟨b_main_arg4, b_main_arg5, b_main_arg6, b_main_v3, b_main_v6, b_main_v8, b_main_v10⟩ := specB (F := F) (after opsA V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) a_main_arg0 a_main_arg3 a_main_arg4 a_main_arg5 a_main_arg6 a_main_v3 a_main_v6 a_main_v8
  obtain ⟨c_main_arg4, c_main_arg5, c_main_arg6, c_main_v3, c_main_v6, c_main_v8, c_main_v10, c_main_v20⟩ := specC (F := F) (after opsB (after opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) b_main_arg4 b_main_arg5 b_main_arg6 b_main_v3 b_main_v6 b_main_v8 b_main_v10
  obtain ⟨d_main_arg4, d_main_arg5, d_main_arg6, d_main_v3, d_main_v6, d_main_v8, d_main_v10, d_main_v36⟩ := specD (F := F) (after opsC (after opsB (after opsA V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) c_main_arg4 c_main_arg5 c_main_arg6 c_main_v3 c_main_v6 c_main_v8 c_main_v10 c_main_v20
  obtain ⟨e_main_arg4, e_main_arg5, e_main_arg6, e_main_v3, e_main_v6, e_main_v8, e_main_v46⟩ := specE (F := F) (after opsD (after opsC (after opsB (after opsA V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) d_main_arg4 d_main_arg5 d_main_arg6 d_main_v3 d_main_v6 d_main_v8 d_main_v10 d_main_v36
  obtain ⟨f_main_arg5, f_main_arg6, f_main_v3, f_main_v6, f_main_v8, f_main_v53⟩ := specF (F := F) (after opsE (after opsD (after opsC (after opsB (after opsA V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) e_main_arg4 e_main_arg5 e_main_arg6 e_main_v3 e_main_v6 e_main_v8 e_main_v46
  obtain ⟨g_main_arg6, g_main_v3, g_main_v6, g_main_v8, g_main_v55⟩ := specG (F := F) (after opsF (after opsE (after opsD (after opsC (after opsB (after opsA V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) f_main_arg5 f_main_arg6 f_main_v3 f_main_v6 f_main_v8 f_main_v53
  obtain ⟨h_main_arg6, h_main_v3, h_main_v6, h_main_v8, h_main_v55, h_main_v65⟩ := specH (F := F) (after opsG (after opsF (after opsE (after opsD (after opsC (after opsB (after opsA V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) g_main_arg6 g_main_v3 g_main_v6 g_main_v8 g_main_v55
  obtain ⟨i_main_arg6, i_main_v3, i_main_v6, i_main_v55, i_main_v81⟩ := specI (F := F) (after opsH (after opsG (after opsF (after opsE (after opsD (after opsC (after opsB (after opsA V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) h_main_arg6 h_main_v3 h_main_v6 h_main_v8 h_main_v55 h_main_v65
  obtain ⟨j_main_arg6, j_main_v6, j_main_v91⟩ := specJ (F := F) (after opsI (after opsH (after opsG (after opsF (after opsE (after opsD (after opsC (after opsB (after opsA V))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) i_main_arg6 i_main_v3 i_main_v6 i_main_v55 i_main_v81
  have k_main_v97 := specK (F := F) (after opsJ (after opsI (after opsH (after opsG (after opsF (after opsE (after opsD (after opsC (after opsB (after opsA V)))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) j_main_arg6 j_main_v6 j_main_v91
  exact specL (F := F) (after opsK (after opsJ (after opsI (after opsH (after opsG (after opsF (after opsE (after opsD (after opsC (after opsB (after opsA V))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) k_main_v97

/-- No operation writes argument 0's buffer: it ends as it was launched. -/
theorem keep_arg0 (V : Valuation τ sig (Elt F)) :
    after ops V (Proc.devRef .tc main_arg0) = V (Proc.devRef .tc main_arg0) := by
  after_results_simp

/-- No operation writes argument 1's buffer: it ends as it was launched. -/
theorem keep_arg1 (V : Valuation τ sig (Elt F)) :
    after ops V (Proc.devRef .tc main_arg1) = V (Proc.devRef .tc main_arg1) := by
  after_results_simp

/-- No operation writes argument 2's buffer: it ends as it was launched. -/
theorem keep_arg2 (V : Valuation τ sig (Elt F)) :
    after ops V (Proc.devRef .tc main_arg2) = V (Proc.devRef .tc main_arg2) := by
  after_results_simp

/-- No operation writes argument 3's buffer: it ends as it was launched. -/
theorem keep_arg3 (V : Valuation τ sig (Elt F)) :
    after ops V (Proc.devRef .tc main_arg3) = V (Proc.devRef .tc main_arg3) := by
  after_results_simp

/-- No operation writes argument 4's buffer: it ends as it was launched. -/
theorem keep_arg4 (V : Valuation τ sig (Elt F)) :
    after ops V (Proc.devRef .tc main_arg4) = V (Proc.devRef .tc main_arg4) := by
  after_results_simp

/-- No operation writes argument 5's buffer: it ends as it was launched. -/
theorem keep_arg5 (V : Valuation τ sig (Elt F)) :
    after ops V (Proc.devRef .tc main_arg5) = V (Proc.devRef .tc main_arg5) := by
  after_results_simp

/-- No operation writes argument 6's buffer: it ends as it was launched. -/
theorem keep_arg6 (V : Valuation τ sig (Elt F)) :
    after ops V (Proc.devRef .tc main_arg6) = V (Proc.devRef .tc main_arg6) := by
  after_results_simp

/-- On every device, for any float values, from any memory with zero counters: every weakly fair execution of the
    reference terminates with its result buffer at the last stage of the value chain, read at the launch contents of
    the seven arguments, and with the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v98)
          = ReadP.val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v98).trans (value (StableHlo.launchContents m c)),
       (h c main_arg0).trans (keep_arg0 (StableHlo.launchContents m c)),
       (h c main_arg1).trans (keep_arg1 (StableHlo.launchContents m c)),
       (h c main_arg2).trans (keep_arg2 (StableHlo.launchContents m c)),
       (h c main_arg3).trans (keep_arg3 (StableHlo.launchContents m c)),
       (h c main_arg4).trans (keep_arg4 (StableHlo.launchContents m c)),
       (h c main_arg5).trans (keep_arg5 (StableHlo.launchContents m c)),
       (h c main_arg6).trans (keep_arg6 (StableHlo.launchContents m c))⟩)
    (run_after m ρ)

end Cert.ReferenceIdeal.Hand

end
-- ==== Proof.LibHostLogSoftmaxRow.lean ====
/-
  The host's row-wise log-softmax read at an entry, on the extended reals.

  The host spells it, for an `[a, b]` array `x`: the row maximum by a reduce with a maximum body from `−∞`, joined once
  more with `−∞`; kept as an `[a, 1]` column and broadcast back over the lanes; subtracted; exponentiated; summed over
  each row from `0`; kept as a column; its logarithm broadcast back and subtracted. At entry `(p, c)` that is
  `(x (p, c) − m) − log (Σ_k exp (x (p, k) − m))` with `m` the fold of `max` from `−∞` over row `p`.
-/
import proofs.«127246_j2499670966350_1_alg».proof.Proof.LibLogSoftmaxRow
import Idealize.ShloMosaic.PureOps.Reduce

noncomputable section

namespace Idealize.ShloMosaic.HostLogSoftmaxRow

open Idealize.ShloMosaic Idealize.ShloMosaic.ValueIdx Idealize.ShloMosaic.LogSoftmaxRow

variable {a b : ℕ}

/-- The reduced index `p` with lane `k` put back is `(p, k)`. -/
theorem lift_ix1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- Joining with `−∞` changes nothing. -/
theorem max_neg_inf (y : EReal) : max (Ideal.ofBits .f32 0xFF800000#32) y = y := by
  rw [ofBits_neg_inf]; exact max_eq_right bot_le

/-- The host's row maximum from `−∞`, joined with `−∞`, kept as a column and broadcast back, reads at `(p, c)` the
    row's largest entry. -/
theorem hostTop_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (broadcastInDim ⟨2, ![a, 1]⟩ ![0] hb1
      (maximumf (broadcastInDim ⟨1, ![a]⟩ ![] hb0 (constant (F := Ideal) ⟨0, ![]⟩ .f32 0xFF800000#32))
        (Host.reduce FloatOps.maximumf x (constant (F := Ideal) ⟨0, ![]⟩ .f32 0xFF800000#32) h' hu))) (ix2 p c)
      = rowTop x p := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  rw [maximumf_apply, broadcastInDim_apply ![] hb0 _ (ix1 p) ix0 (fun ax => ax.elim0)]
  rw [Host.reduce_eq_fold_single FloatOps.maximumf x _ h' h hu]
  show max (Ideal.ofBits .f32 0xFF800000#32) ((Finset.univ : Finset (Fin b)).fold max (Ideal.ofBits .f32 0xFF800000#32) (x ∘ h.lift (ix1 p))) = _
  rw [max_neg_inf, ofBits_neg_inf]
  unfold rowTop
  refine congrArg (fun f => (Finset.univ : Finset (Fin b)).fold max ⊥ f) (funext fun k => ?_)
  exact congrArg x (lift_ix1 h p k)

/-- The host's row sum from `0` of an array `w`, kept as a column, its logarithm broadcast back, reads at `(p, c)` the
    logarithm of row `p`'s sum. -/
theorem hostLogSum_apply (w : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (Host.log (broadcastInDim ⟨2, ![a, 1]⟩ ![0] hb1
      (Host.reduceAdd w (constant (F := Ideal) ⟨0, ![]⟩ .f32 0x00000000#32) h' hu))) (ix2 p c)
      = Ideal.log (∑ k : Fin b, w (ix2 p k)) := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  show Ideal.log (broadcastInDim ⟨2, ![a, 1]⟩ ![0] hb1 (Host.reduceAdd w (constant (F := Ideal) ⟨0, ![]⟩ .f32 0x00000000#32) h' hu) (ix2 p (0 : Fin 1))) = _
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  refine congrArg Ideal.log ?_
  show Ideal.hostReduceAdd h' w (Ideal.ofBits .f32 0x00000000#32) (ix1 p) = _
  rw [Ideal.hostReduceAdd_single h' h, Ideal.ofBits_zero_f32, zero_add]
  exact Finset.sum_congr rfl fun k _ => congrArg w (lift_ix1 h p k)

/-- The host's whole row-wise log-softmax at entry `(p, c)`. -/
theorem hostLogSoftmax_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    subf (subf x (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) h' hu)))))
      (broadcastInDim ⟨2, ![a, b]⟩ ![0, 1] hb2 (Host.log (broadcastInDim ⟨2, ![a, 1]⟩ ![0] hb1
        (Host.reduceAdd (Host.exp (subf x (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf x (constant (F := Ideal) ⟨0, ![]⟩ .f32 0xFF800000#32) h' hu))))))
          (constant (F := Ideal) ⟨0, ![]⟩ .f32 0x00000000#32) h' hu)))) (ix2 p c)
      = (x (ix2 p c) - rowTop x p) - Ideal.log (∑ k : Fin b, Ideal.exp (x (ix2 p k) - rowTop x p)) := by
  rw [subf_apply, subf_apply, hostTop_apply x h' h hu hb0 hb1 hb2 p c, hostLogSum_apply _ h' h hu hb1 hb2 p c]
  refine congrArg (fun s => (x (ix2 p c) - rowTop x p) - Ideal.log s) (Finset.sum_congr rfl fun k _ => ?_)
  show Ideal.exp (subf x _ (ix2 p k)) = _
  rw [subf_apply, hostTop_apply x h' h hu hb0 hb1 hb2 p k]

end Idealize.ShloMosaic.HostLogSoftmaxRow

end
-- ==== Proof.lean ====
/-
  A two-layer graph convolution network: the kernel program against its reference, on the extended reals.

  Both programs add self loops, take the weighted in-degree of every node by a scatter-add, and its inverse square
  root (zero where the degree is not positive); each layer multiplies the node features by the transposed weights,
  gathers the rows of the edges' sources, scales every gathered row by (dinv[source] · weight) · dinv[target],
  scatter-adds the rows onto the edges' targets and adds the bias; the first layer ends with the positive part, the
  second with the row-wise log-softmax. The kernel program computes the four dense or row-wise pieces of each layer in
  six pipelined regions, block of rows by block of rows, and leaves the gathers and scatters to the host, as the
  reference does; it computes the three per-edge factors once where the reference computes them per layer.

  Region by region the output array is one whole-array function of the arrays the region finds (RegionFinals); each
  such function applied to the reference's stages is the reference's next stage, entry by entry (Bridge): a dense
  block product is the same sum of products as the host's product with the transposed weights, a change of float
  format being the identity on the extended reals; the scaling, the bias with the positive part and the log-softmax
  are the same expressions in the same order. No law of arithmetic beyond reindexing a finite sum is used, so the
  finiteness of the inputs is not needed. Walking the kernel program's buffers through its fifteen segments
  (KernelChainA, KernelChainB) and the reference's through its operations (RefValue) gives the same last stage of the same arguments.
-/
import proofs.«127246_j2499670966350_1_alg».proof.Defs
import proofs.«127246_j2499670966350_1_alg».proof.Proof.Gen.Kernel
import proofs.«127246_j2499670966350_1_alg».proof.Proof.Gen.Kernel.Frame
import proofs.«127246_j2499670966350_1_alg».proof.Proof.Gen.KernelIdeal
import proofs.«127246_j2499670966350_1_alg».proof.Proof.Gen.KernelIdeal.Frame
import proofs.«127246_j2499670966350_1_alg».proof.Proof.Gen.ReferenceIdeal
import proofs.«127246_j2499670966350_1_alg».proof.Proof.Gen.Pre_finite_inputs
import proofs.«127246_j2499670966350_1_alg».proof.Proof.KernelRun
import proofs.«127246_j2499670966350_1_alg».proof.Proof.KernelChainB
import proofs.«127246_j2499670966350_1_alg».proof.Proof.RefValue
import proofs.«127246_j2499670966350_1_alg».proof.Proof.LibHostLogSoftmaxRow
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Hand.run m ρ)

/-- Both idealized programs end with the reference's last stage of the (agreeing) arguments in their result buffers. -/
theorem algebraic : Cert.algebraic_KernelIdeal_ReferenceIdeal := by
  intro m ρ m' ρ' _ hagree
  refine ⟨fun c => Cert.ReferenceIdeal.ReadP.val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.result_eq m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Hand.run m' ρ')
    obtain ⟨a0, a1, a2, a3, a4, a5, a6⟩ := hagree c
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
